-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x2048x4096 .f32) (main_arg1 : FVec F S4096x4096 .f32) (main_arg2 : FVec F S4096x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S16384x4096 : Shape := ⟨2, ![16384, 4096]⟩
abbrev S1024x1024 : Shape := ⟨2, ![1024, 1024]⟩
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .hbm, ⟨6, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x256, .f32⟩
  | .local _ .vmem, ⟨7, _⟩ => ⟨S2048x256, .f32⟩
  | .local _ .vmem, ⟨8, _⟩ => ⟨S256x2048, .bf16⟩
  | .local _ .vmem, ⟨9, _⟩ => ⟨S256x2048, .bf16⟩
  | .local _ .vmem, ⟨10, _⟩ => ⟨S2048x2048, .f32⟩
  | .local _ .vmem, ⟨11, _⟩ => ⟨S2048x2048, .f32⟩
  | .local _ .vmem, ⟨12, _⟩ => ⟨S2048x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8x2048x4096_S16384x4096 : S8x2048x4096.ShapeCasts S16384x4096
  inb_S1024x1024_S1024x1024_0_0 : ∀ a, (![0, 0] : Fin 2 → Nat) a + S1024x1024.size a ≤ S1024x1024.size a
  h_S1024x1024 : 0 < S1024x1024.numel
  natLt_1_32 : 1 < 32
  bitsLt_bf16_f32 : FTy.bits .bf16 < FTy.bits .f32
  transposes_S1024x1024_p1_0_S1024x1024 : S1024x1024.Transposes [1, 0] S1024x1024
  packedbf16_S1024x1024_S1024x1024_0_0 : (Rect.unit (s := S1024x1024) ![0, 0] S1024x1024.size inb_S1024x1024_S1024x1024_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S16384x4096_S8x2048x4096 : S16384x4096.ShapeCasts S8x2048x4096
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x4096.size a
  hwx1_0 : ∀ i : grid1.Coords, EltTy.bits .f32 = 32 ∨ (Rect.block (s := S16384x4096) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x4096.size a
  hwx1_1 : ∀ i : grid1.Coords, EltTy.bits .bf16 = 32 ∨ (Rect.block (s := S4096x4096) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S16384x4096.size a
  hwx1_2 : ∀ i : grid1.Coords, EltTy.bits .f32 = 32 ∨ (Rect.block (s := S16384x4096) S2048x2048.size (cc1_transform_2 i) (hinb1_2 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.K.Combine.lean ====
/-
  The first kernel region: the two weight matrices are combined, block by block, into one matrix.

  The grid is 4 × 4. At point (i, j) the body reads block (i, j) of each weight matrix (1024 × 1024), thresholds
  both at zero, subtracts, transposes, and stores the result whole into its output buffer, which is written back
  as block (j, i) of the combined matrix. There is one control case and nothing is kept between points, so what
  the output buffer holds after the body is one function of the two input blocks (`combOut`).
-/
import proofs.«134041_j82325933130247_2_alg».proof.Proof.Gen.Kernel.Launch
import proofs.«134041_j82325933130247_2_alg».proof.Proof.Gen.Kernel.Skeleton
import proofs.«134041_j82325933130247_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the array the region finds. -/
def wblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first weight matrix's staging buffer holds its block at every point. -/
theorem held0_0 {c : Dev nD} (dat : Dat τ (Elt F) Unit ℕ (UR sig nD τ) ℕ cfg0 c) (hA : dat.A 0 = V c (Pipeline.arrRef spec0 0))
    (hafter : ∀ t, dat.after 0 t = wblk0 V c 0 t) (t : Fin cfg0.N) (d) : dat.before 0 t d = wblk0 V c 0 t :=
  (dat.before_in_eq_fetched 0 rfl (fun _ => rfl) (fun _ _ _ => rfl) (fun t => by rw [hafter]; unfold Dat.blockOf wblk0; rw [hA]; try rfl) t d).trans
    (by unfold Dat.fetched Dat.blockOf wblk0; rw [hA]; try rfl)

/-- The second weight matrix's staging buffer holds its block at every point. -/
theorem held0_1 {c : Dev nD} (dat : Dat τ (Elt F) Unit ℕ (UR sig nD τ) ℕ cfg0 c) (hA : dat.A 1 = V c (Pipeline.arrRef spec0 1))
    (hafter : ∀ t, dat.after 1 t = wblk0 V c 1 t) (t : Fin cfg0.N) (d) : dat.before 1 t d = wblk0 V c 1 t :=
  (dat.before_in_eq_fetched 1 rfl (fun _ => rfl) (fun _ _ _ => rfl) (fun t => by rw [hafter]; unfold Dat.blockOf wblk0; rw [hA]; try rfl) t d).trans
    (by unfold Dat.fetched Dat.blockOf wblk0; rw [hA]; try rfl)

/-- The whole 1024 × 1024 block as a rectangle. -/
abbrev whole1024 : Rect S1024x1024 := Rect.unit (s := S1024x1024) ![0, 0] S1024x1024.size inb_S1024x1024_S1024x1024_0_0

/-- What the body leaves in the output buffer: its one store, of the thresholded, subtracted and transposed blocks. -/
def combOut (x0 x1 : Vec F S1024x1024 .f32) : Vec F S1024x1024 .bf16 :=
  View.canon [⟨whole1024, k0_pay1 (View.ld x0 whole1024) (View.ld x1 whole1024)⟩]

/-- The one store covers the buffer. -/
theorem combCover (p0 : Vec F S1024x1024 .bf16) (y : S1024x1024.Idx) :
    ∃ pc ∈ ([⟨whole1024, p0⟩] : List (View.Piece (Elt F) S1024x1024 .bf16)), y ∈ pc.1.set :=
  View.cover_of_tiled [⟨whole1024, p0⟩] S1024x1024.size (by rfl) y

set_option maxHeartbeats 1000000 in
/-- The body on whole staging buffers: the inputs at `x0`, `x1` and the output at anything run to the inputs as
    they were and the output at `combOut x0 x1`. -/
theorem combTriple (c : Dev nD) (E : Set ℕ) (i : grid0.Coords) (arg2 : Memref sig .tc .vmem S1024x1024 .f32) (harg2 : arg2.IsWhole)
    (arg3 : Memref sig .tc .vmem S1024x1024 .f32) (harg3 : arg3.IsWhole) (arg4 : Memref sig .tc .vmem S1024x1024 .bf16) (harg4 : arg4.IsWhole)
    (x0 x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (combOut x0 x1)) -∗ K ⟨⟩))
      ⊢ wp frame (wpE (defs₀ (F := F)) Variants.none c none) E (cc0__combine_kernel i arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combCover _)

/-- The region's proof data on core `c`: the arrays as found; after the body each input buffer at its block and
    the output buffer at `combOut` of the two blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => wblk0 V c 0 t
    | ⟨1, _⟩ => wblk0 V c 1 t
    | ⟨2, _⟩ => combOut (wblk0 V c 0 t) (wblk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = wblk0 V c 0 t := by dsimp only [dat0]
theorem dat0_after_1 (c : Dev nD) (t : Fin cfg0.N) : (dat0 V c).after 1 t = wblk0 V c 1 t := by dsimp only [dat0]
theorem dat0_after_2 (c : Dev nD) (t : Fin cfg0.N) : (dat0 V c).after 2 t = combOut (wblk0 V c 0 t) (wblk0 V c 1 t) := by dsimp only [dat0]

theorem dat0_before_0 (c : Dev nD) (t : Fin cfg0.N) (d) : (dat0 V c).before 0 t d = wblk0 V c 0 t :=
  held0_0 V (dat0 V c) (dat0_A V c 0) (dat0_after_0 V c) t d
theorem dat0_before_1 (c : Dev nD) (t : Fin cfg0.N) (d) : (dat0 V c).before 1 t d = wblk0 V c 1 t :=
  held0_1 V (dat0 V c) (dat0_A V c 1) (dat0_after_1 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant and the
    core's dues pass through unread. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (combTriple c Set.univ _ _ _ _ _ _ _ (wblk0 V c 0 t) (wblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem obligation0 (c : Dev nD) : BodyObligation (dat0 (F := F) V c) (defs₀ (F := F)) Variants.none () Set.univ := fun t => by
  rw [bigSep_W0, bigSep_W0]
  exact body0 V c t

end Cert.Kernel.Hand

end
-- ==== Proof.K.AccSetup.lean ====
/-
  The second kernel region, its setting: a 2048 × 2048 output block accumulated over sixteen K-steps.

  The grid is 8 × 2 × 16, the last axis innermost. At point (i, j, k) the body reads block (i, k) of the activations
  (2048 × 256) and block (k, j) of the combined weight (256 × 2048); at k = 0 it first fills its scratch accumulator
  with zeros; it adds the product of the two blocks to the accumulator; at k = 15 it copies the accumulator into
  the output buffer, which is written back as block (i, j) only there. So the accumulator is carried from point to
  point, and the output window is idle at the fifteen points of each group of sixteen where k < 15.
-/
import proofs.«134041_j82325933130247_2_alg».proof.Proof.Gen.Kernel.Launch
import proofs.«134041_j82325933130247_2_alg».proof.Proof.Gen.Kernel.Skeleton
import proofs.«134041_j82325933130247_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the array the region finds. -/
def wblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds its block at every point. -/
theorem held1_0 {c : Dev nD} (dat : Dat τ (Elt F) Unit ℕ (UR sig nD τ) ℕ cfg1 c) (hA : dat.A 0 = V c (Pipeline.arrRef spec1 0))
    (hafter : ∀ t, dat.after 0 t = wblk1 V c 0 t) (t : Fin cfg1.N) (d) : dat.before 0 t d = wblk1 V c 0 t :=
  (dat.before_in_eq_fetched 0 rfl (fun _ => rfl) (fun _ _ _ => rfl) (fun t => by rw [hafter]; unfold Dat.blockOf wblk1; rw [hA]; try rfl) t d).trans
    (by unfold Dat.fetched Dat.blockOf wblk1; rw [hA]; try rfl)

/-- The combined weight's staging buffer holds its block at every point. -/
theorem held1_1 {c : Dev nD} (dat : Dat τ (Elt F) Unit ℕ (UR sig nD τ) ℕ cfg1 c) (hA : dat.A 1 = V c (Pipeline.arrRef spec1 1))
    (hafter : ∀ t, dat.after 1 t = wblk1 V c 1 t) (t : Fin cfg1.N) (d) : dat.before 1 t d = wblk1 V c 1 t :=
  (dat.before_in_eq_fetched 1 rfl (fun _ => rfl) (fun _ _ _ => rfl) (fun t => by rw [hafter]; unfold Dat.blockOf wblk1; rw [hA]; try rfl) t d).trans
    (by unfold Dat.fetched Dat.blockOf wblk1; rw [hA]; try rfl)

/-! ## The two conditions of the body, over the grid -/

/-- "This is the first K-step" (k = 0), as the body computes it from the grid coordinates. -/
abbrev first1 (i : grid1.Coords) : Prop :=
  (Scalar.cmpi .ne (Scalar.extui (Scalar.cmpi .eq (BitVec.ofNat 32 (i 2).val) 0#32)) 0#32) = 1#1
/-- It holds at the points ≡ 0 (mod 16). -/
theorem first1_iff : ∀ t : Fin cfg1.N, first1 (grid1.coords t) ↔ t.val % 16 = 0 :=
  (by decide +kernel : ∀ t : Fin grid1.N, first1 (grid1.coords t) ↔ t.val % 16 = 0)

/-- "This is the last K-step" (k = 15). -/
abbrev last1 (i : grid1.Coords) : Prop := k1_cond2 i = 1#1
/-- It holds at the points ≡ 15 (mod 16). -/
theorem last1_iff : ∀ t : Fin cfg1.N, last1 (grid1.coords t) ↔ t.val % 16 = 15 :=
  (by decide +kernel : ∀ t : Fin grid1.N, last1 (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from the last K-step the output window is idle, and its block is not written back there. -/
theorem idle1_2 : ∀ t : Fin cfg1.N, ¬last1 (grid1.coords t) → cfg1.idle 2 (grid1.coords t) = true := by decide +kernel
theorem noflush1_2 : ∀ t : Fin cfg1.N, ¬last1 (grid1.coords t) → (cfg1.win 2).flush t = false := by decide +kernel
/-- At the last K-step it is live. -/
theorem live1_2 : ∀ t : Fin cfg1.N, last1 (grid1.coords t) → cfg1.idle 2 (grid1.coords t) = false := by decide +kernel

/-! ## The accumulator and the rest of the scoped buffers -/

/-- The scratch accumulator, a whole scoped buffer of the kernel's own. -/
abbrev accM : Memref sig .tc .vmem S2048x2048 .f32 := Memref.whole cc1_scratch0

/-- The whole 2048 × 2048 block's offsets are zero. -/
theorem zero2 : (![0, 0] : Fin 2 → Nat) = fun _ => 0 := by funext a; fin_cases a <;> rfl

/-- A load of a whole staging buffer through the whole-block rectangle reads its contents (one lemma per block shape). -/
theorem ldA (X : Vec F S2048x256 .f32) :
    View.ld X (Rect.unit (s := S2048x256) ![0, 0] S2048x256.size inb_S2048x256_S2048x256_0_0) = X := View.ld_unit_zero zero2 _ X
theorem ldW (X : Vec F S256x2048 .bf16) :
    View.ld X (Rect.unit (s := S256x2048) ![0, 0] S256x2048.size inb_S256x2048_S256x2048_0_0) = X := View.ld_unit_zero zero2 _ X
theorem ldO (X : Vec F S2048x2048 .f32) :
    View.ld X (Rect.unit (s := S2048x2048) ![0, 0] S2048x2048.size inb_S2048x2048_S2048x2048_0_0) = X := View.ld_unit_zero zero2 _ X

/-- The K-step is a function of its three operands. -/
theorem step_congr {a a' : Vec F S2048x256 .f32} {b b' : Vec F S256x2048 .bf16} {s s' : Vec F S2048x2048 .f32}
    (ha : a = a') (hb : b = b') (hs : s = s') : k1_pay2 a b s = k1_pay2 a' b' s' := by subst ha hb hs; rfl

/-- What rides beside the accumulator through the region: the first region's six staging buffers, at anything, and
    the generator register at some state. -/
def side1 (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f))
    ∗ ∃ r, prngReg c r)

/-- The class invariant (every scoped buffer that is no staging buffer of this region, at anything, and the
    generator register) is the accumulator at anything beside `side1`. -/
theorem open1 (c : Dev nD) : (Pipeline.ΦA spec1 c : sProp 𝕄) ⊢ iprop((∃ d, owns (c : Thread nD τ) accM fullShare d) ∗ side1 c) := by
  unfold Pipeline.ΦA side1; rw [scopedRest1_eq]; simp only [accM, owns_whole]
  iintro ⟨⟨Ha, Hb, Hc, Hd, He, Hf, HS⟩, Hg⟩
  isplitl [HS]; · iexact HS
  isplitr [Hg]
  · isplitl [Ha]; · iexact Ha
    isplitl [Hb]; · iexact Hb
    isplitl [Hc]; · iexact Hc
    isplitl [Hd]; · iexact Hd
    isplitl [He]; · iexact He
    iexact Hf
  iexact Hg

theorem close1 (c : Dev nD) : iprop((∃ d, owns (c : Thread nD τ) accM fullShare d) ∗ side1 c) ⊢ (Pipeline.ΦA spec1 c : sProp 𝕄) := by
  unfold Pipeline.ΦA side1; rw [scopedRest1_eq]; simp only [accM, owns_whole]
  iintro ⟨HS, ⟨Ha, Hb, Hc, Hd, He, Hf⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexact HS
  iexact Hg

end Cert.Kernel.Hand

end
-- ==== Proof.K.AccFirst.lean ====
/-
  The accumulating kernel's body at a first K-step (k = 0), on whole staging buffers.

  The accumulator, whatever it held, is filled with zeros, reloaded, added to the product of the two input blocks
  and stored back: it ends at `k1_pay2 x0 x1 k1_pay1`, the step applied to the zero block. The output buffer is not
  touched.
-/
import proofs.«134041_j82325933130247_2_alg».proof.Proof.K.AccSetup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tripleFirst (c : Dev nD) (E : Set ℕ) (i : grid1.Coords) (arg3 : Memref sig .tc .vmem S2048x256 .f32) (harg3 : arg3.IsWhole)
    (arg4 : Memref sig .tc .vmem S256x2048 .bf16) (harg4 : arg4.IsWhole) (arg5 : Memref sig .tc .vmem S2048x2048 .f32) (harg5 : arg5.IsWhole)
    (arg6 : Memref sig .tc .vmem S2048x2048 .f32) (harg6 : arg6.IsWhole) (hc0 : first1 i) (hc1 : ¬ last1 i)
    (x0 : Vec F S2048x256 .f32) (x1 : Vec F S256x2048 .bf16) (xi : Vec F S2048x2048 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 (k1_pay1 (F := F)))) -∗ K ⟨⟩))
      ⊢ wp frame (wpE (defs₀ (F := F)) Variants.none c none) E (cc1__plinear_kernel i arg3 harg3 arg4 harg4 arg5 harg5 arg6 harg6) K := by
  simp only [cc1__plinear_kernel_eq_skeleton]; unfold cc1__plinear_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  (try sl_unfold_run_names)
  rw [View.read_writes_eq_canon _ _ _ (fun y => ⟨_, List.mem_cons_self, View.mem_set_unit_zero zero2 inb_S2048x2048_S2048x2048_0_0 y⟩), View.canon_cons_unit_zero zero2]
  (try rw [View.readCov_unit_zero _ zero2])
  exact step_congr (ldA (arg3.view.read (Elt F) f0)) (ldW (arg4.view.read (Elt F) f1)) rfl

end Cert.Kernel.Hand

end
-- ==== Proof.K.AccMid.lean ====
/-
  The accumulating kernel's body at a middle K-step (0 < k < 15), on whole staging buffers.

  The accumulator, found at `xs`, is loaded, added to the product of the two input blocks and stored back: it ends
  at `k1_pay2 x0 x1 xs`. The output buffer is not touched.
-/
import proofs.«134041_j82325933130247_2_alg».proof.Proof.K.AccSetup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tripleMid (c : Dev nD) (E : Set ℕ) (i : grid1.Coords) (arg3 : Memref sig .tc .vmem S2048x256 .f32) (harg3 : arg3.IsWhole)
    (arg4 : Memref sig .tc .vmem S256x2048 .bf16) (harg4 : arg4.IsWhole) (arg5 : Memref sig .tc .vmem S2048x2048 .f32) (harg5 : arg5.IsWhole)
    (arg6 : Memref sig .tc .vmem S2048x2048 .f32) (harg6 : arg6.IsWhole) (hc0 : ¬ first1 i) (hc1 : ¬ last1 i)
    (x0 : Vec F S2048x256 .f32) (x1 : Vec F S256x2048 .bf16) (xi : Vec F S2048x2048 .f32) (xs : Vec F S2048x2048 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 xs)) -∗ K ⟨⟩))
      ⊢ wp frame (wpE (defs₀ (F := F)) Variants.none c none) E (cc1__plinear_kernel i arg3 harg3 arg4 harg4 arg5 harg5 arg6 harg6) K := by
  simp only [cc1__plinear_kernel_eq_skeleton]; unfold cc1__plinear_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  (try sl_unfold_run_names)
  rw [View.read_writes_eq_canon _ _ _ (fun y => ⟨_, List.mem_cons_self, View.mem_set_unit_zero zero2 inb_S2048x2048_S2048x2048_0_0 y⟩), View.canon_cons_unit_zero zero2]
  (try rw [View.readCov_unit_zero _ zero2])
  exact step_congr (ldA (arg3.view.read (Elt F) f0)) (ldW (arg4.view.read (Elt F) f1)) (ldO (arg6.view.read (Elt F) fs))

end Cert.Kernel.Hand

end
-- ==== Proof.K.AccLast.lean ====
/-
  The accumulating kernel's body at a last K-step (k = 15), on whole staging buffers.

  The accumulator, found at `xs`, is loaded, added to the product of the two input blocks and stored back, then
  reloaded and copied whole into the output buffer: both end at `k1_pay2 x0 x1 xs`.
-/
import proofs.«134041_j82325933130247_2_alg».proof.Proof.K.AccSetup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tripleLast (c : Dev nD) (E : Set ℕ) (i : grid1.Coords) (arg3 : Memref sig .tc .vmem S2048x256 .f32) (harg3 : arg3.IsWhole)
    (arg4 : Memref sig .tc .vmem S256x2048 .bf16) (harg4 : arg4.IsWhole) (arg5 : Memref sig .tc .vmem S2048x2048 .f32) (harg5 : arg5.IsWhole)
    (arg6 : Memref sig .tc .vmem S2048x2048 .f32) (harg6 : arg6.IsWhole) (hc0 : ¬ first1 i) (hc1 : last1 i)
    (x0 : Vec F S2048x256 .f32) (x1 : Vec F S256x2048 .bf16) (xs : Vec F S2048x2048 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k1_pay2 x0 x1 xs)
            ∗ owns (c : Thread nD τ) arg6 fullShare (k1_pay2 x0 x1 xs)) -∗ K ⟨⟩))
      ⊢ wp frame (wpE (defs₀ (F := F)) Variants.none c none) E (cc1__plinear_kernel i arg3 harg3 arg4 harg4 arg5 harg5 arg6 harg6) K := by
  simp only [cc1__plinear_kernel_eq_skeleton]; unfold cc1__plinear_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    (try sl_unfold_run_names)
    rw [View.read_writes_eq_canon _ _ _ (fun y => ⟨_, List.mem_cons_self, View.mem_set_unit_zero zero2 inb_S2048x2048_S2048x2048_0_0 y⟩), View.canon_cons_unit_zero zero2]
    (try rw [View.readCov_unit_zero _ zero2])
    exact step_congr (ldA (arg3.view.read (Elt F) f0)) (ldW (arg4.view.read (Elt F) f1)) (ldO (arg6.view.read (Elt F) fs))
  iexists _; isplitr
  swap; · iexact HS
  ipureintro
  (try sl_unfold_run_names)
  rw [View.read_writes_eq_canon _ _ _ (fun y => ⟨_, List.mem_cons_self, View.mem_set_unit_zero zero2 inb_S2048x2048_S2048x2048_0_0 y⟩), View.canon_cons_unit_zero zero2]
  (try rw [View.readCov_unit_zero _ zero2])
  exact step_congr (ldA (arg3.view.read (Elt F) f0)) (ldW (arg4.view.read (Elt F) f1)) (ldO (arg6.view.read (Elt F) fs))

end Cert.Kernel.Hand

end
-- ==== Proof.K.AccBody.lean ====
/-
  The second kernel region, point by point.

  `accAt n` is what the scratch accumulator holds after grid point `n`: at a first K-step the step applied to the
  zero block, elsewhere the step applied to what the point before left. The region's invariant before the first
  point is the class's (every scoped buffer at anything); after point `n` it holds the accumulator at `accAt n`.
  The output buffer after a last K-step is the accumulator; elsewhere it is idle and is handed back as found.
-/
import proofs.«134041_j82325933130247_2_alg».proof.Proof.K.AccFirst
import proofs.«134041_j82325933130247_2_alg».proof.Proof.K.AccMid
import proofs.«134041_j82325933130247_2_alg».proof.Proof.K.AccLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One K-step at point `t` on an accumulator `xs`: `xs` plus the product of the point's two input blocks. -/
def stepAt (c : Dev nD) (t : Fin cfg1.N) (xs : Vec F S2048x2048 .f32) : Vec F S2048x2048 .f32 :=
  k1_pay2 (wblk1 V c 0 t) (wblk1 V c 1 t) xs

/-- The accumulator after point `n`. -/
def accAt (c : Dev nD) : (n : ℕ) → n < cfg1.N → Vec F S2048x2048 .f32
  | 0, hn => stepAt V c ⟨0, hn⟩ (k1_pay1 (F := F))
  | n + 1, hn => stepAt V c ⟨n + 1, hn⟩ (if (n + 1) % 16 = 0 then k1_pay1 (F := F) else accAt c n (Nat.lt_of_succ_lt hn))

theorem accAt_first (c : Dev nD) (t : Fin cfg1.N) (h : t.val % 16 = 0) :
    accAt V c t.val t.isLt = stepAt V c t (k1_pay1 (F := F)) := by
  obtain ⟨n, hn⟩ := t
  cases n with
  | zero => rfl
  | succ n => show stepAt V c ⟨n + 1, hn⟩ (if (n + 1) % 16 = 0 then _ else _) = _; rw [if_pos h]

theorem accAt_next (c : Dev nD) (t : Fin cfg1.N) (h : ¬ t.val % 16 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => show stepAt V c ⟨n + 1, hn⟩ (if (n + 1) % 16 = 0 then _ else _) = _; rw [if_neg h]; rfl

/-- The region's invariant before position `n`. -/
def inv1 (c : Dev nD) : (n : ℕ) → n ≤ cfg1.N → sProp 𝕄
  | 0, _ => Pipeline.ΦA spec1 c
  | n + 1, hn => iprop(owns (c : Thread nD τ) accM fullShare (accAt V c n hn) ∗ side1 c)

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(owns (c : Thread nD τ) accM fullShare (accAt V c n hn) ∗ side1 c) := rfl

theorem inv1_pos (c : Dev nD) (n : ℕ) (h : n ≤ cfg1.N) (hz : n ≠ 0) :
    inv1 V c n h = iprop(owns (c : Thread nD τ) accM fullShare (accAt V c (n - 1) (by omega)) ∗ side1 c) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => wblk1 V c 0 t
    | ⟨1, _⟩ => wblk1 V c 1 t
    | ⟨2, _⟩ => accAt V c t.val t.isLt
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_inv (c : Dev nD) (t : Fin cfg1.N) :
    (dat1 V c).Φ t.castSucc = inv1 V c t.val (Nat.le_of_lt t.isLt) := by
  dsimp only [dat1]; simp only [Fin.coe_castSucc]

theorem dat1_after_0 (c : Dev nD) (t : Fin cfg1.N) : (dat1 V c).after 0 t = wblk1 V c 0 t := by dsimp only [dat1]
theorem dat1_after_1 (c : Dev nD) (t : Fin cfg1.N) : (dat1 V c).after 1 t = wblk1 V c 1 t := by dsimp only [dat1]
theorem dat1_after_2 (c : Dev nD) (t : Fin cfg1.N) : (dat1 V c).after 2 t = accAt V c t.val t.isLt := by dsimp only [dat1]

theorem dat1_before_0 (c : Dev nD) (t : Fin cfg1.N) (d) : (dat1 V c).before 0 t d = wblk1 V c 0 t :=
  held1_0 V (dat1 V c) (dat1_A V c 0) (dat1_after_0 V c) t d
theorem dat1_before_1 (c : Dev nD) (t : Fin cfg1.N) (d) : (dat1 V c).before 1 t d = wblk1 V c 1 t :=
  held1_1 V (dat1 V c) (dat1_A V c 1) (dat1_after_1 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's case. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (st1_0 t) fullShare ((dat1 V c).after 0 t) from by
    unfold Dat.leavesExact; rw [live1_0 t], dat1_after_0]
  rw [show (dat1 V c).leavesExact 1 t = owns (c : Thread nD τ) (st1_1 t) fullShare ((dat1 V c).after 1 t) from by
    unfold Dat.leavesExact; rw [live1_1 t], dat1_after_1]
  have hN : t.val < 256 := lt_of_lt_of_eq t.isLt (show cfg1.N = 256 from N_1)
  by_cases h0 : t.val % 16 = 0
  · -- a first K-step: the accumulator is found at anything
    have hl : ¬ last1 (grid1.coords t) := fun h => by have := (last1_iff t).mp h; omega
    rw [Dat.leavesExact_idle (dat1 V c) 2 t (idle1_2 t hl) (noflush1_2 t hl)]
    rw [accAt_first V c t h0]; unfold stepAt
    have hopen : (dat1 V c).Φ t.castSucc ⊢ iprop((∃ d, owns (c : Thread nD τ) accM fullShare d) ∗ side1 c) := by
      rw [dat1_inv V c t]
      by_cases hz : t.val = 0
      · rw [inv1_zero V c _ _ hz]; exact open1 c
      · rw [inv1_pos V c _ _ hz]
        iintro ⟨HS, Hr⟩
        isplitl [HS]; · iexists _; iexact HS
        iexact Hr
    iintro ⟨HΦ, Ho, ⟨%d0, H0⟩, ⟨%d1, H1⟩, ⟨%d2, H2⟩⟩
    ihave HΦ' := hopen $$ HΦ
    icases HΦ' with ⟨HS, Hr⟩
    iapply (tripleFirst c Set.univ (grid1.coords t) _ _ _ _ _ _ _ _ ((first1_iff t).mpr h0) hl (wblk1 V c 0 t) (wblk1 V c 1 t) ((dat1 V c).before 2 t d2) _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexists d2; iexact H2
  · have hz : t.val ≠ 0 := fun h => h0 (by rw [h])
    have hf : ¬ first1 (grid1.coords t) := fun h => h0 ((first1_iff t).mp h)
    rw [accAt_next V c t h0]; unfold stepAt
    rw [dat1_inv V c t, inv1_pos V c _ _ hz]
    by_cases h1 : t.val % 16 = 15
    · -- a last K-step: the accumulator is copied into the output buffer
      have hl : last1 (grid1.coords t) := (last1_iff t).mpr h1
      rw [show (dat1 V c).leavesExact 2 t = owns (c : Thread nD τ) (st1_2 t) fullShare ((dat1 V c).after 2 t) from by
        unfold Dat.leavesExact; rw [live1_2 t hl], dat1_after_2]
      rw [accAt_next V c t h0]; unfold stepAt
      iintro ⟨⟨HS, Hr⟩, Ho, ⟨%d0, H0⟩, ⟨%d1, H1⟩, ⟨%d2, H2⟩⟩
      iapply (tripleLast c Set.univ (grid1.coords t) _ _ _ _ _ _ _ _ hf hl (wblk1 V c 0 t) (wblk1 V c 1 t) _ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · -- a middle K-step
      have hl : ¬ last1 (grid1.coords t) := fun h => h1 ((last1_iff t).mp h)
      rw [Dat.leavesExact_idle (dat1 V c) 2 t (idle1_2 t hl) (noflush1_2 t hl)]
      iintro ⟨⟨HS, Hr⟩, Ho, ⟨%d0, H0⟩, ⟨%d1, H1⟩, ⟨%d2, H2⟩⟩
      iapply (tripleMid c Set.univ (grid1.coords t) _ _ _ _ _ _ _ _ hf hl (wblk1 V c 0 t) (wblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists d2; iexact H2

/-- The body obligation of the second region, at every point. -/
theorem obligation1 (c : Dev nD) : BodyObligation (dat1 (F := F) V c) (defs₀ (F := F)) Variants.none () Set.univ := fun t => by
  rw [bigSep_W1, bigSep_W1]
  exact body1 V c t

/-- What the launch hands the region is the invariant before the first point. -/
theorem enter1 (c : Dev nD) : (Pipeline.ΦA spec1 c : sProp 𝕄) ⊢ (dat1 V c).Φ 0 := by
  rw [show (dat1 V c).Φ 0 = inv1 V c 0 (Nat.zero_le _) from rfl, inv1_zero V c 0 _ rfl]
  try exact Idealize.SL.BI.Entails.refl _

/-- After the last point the invariant gives the class's back: the accumulator's contents are forgotten. -/
theorem leave1 (c : Dev nD) : (dat1 V c).Φ (Fin.last cfg1.N) ⊢ (Pipeline.ΦA spec1 c : sProp 𝕄) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 256 := N_1; omega)]
  have hforget : (iprop(owns (c : Thread nD τ) accM fullShare (accAt V c ((Fin.last cfg1.N).val - 1) (by rw [Fin.val_last]; have : cfg1.N = 256 := N_1; omega)) ∗ side1 c) : sProp 𝕄)
      ⊢ iprop((∃ d, owns (c : Thread nD τ) accM fullShare d) ∗ side1 c) := by
    iintro ⟨HS, Hr⟩
    isplitl [HS]; · iexists _; iexact HS
    iexact Hr
  exact hforget.trans (close1 c)

end Cert.Kernel.Hand

end
-- ==== Proof.K.Run.lean ====
/-
  The whole program as four segments: a reshape of the activations on the host, the weight-combining region, the
  accumulating matmul region, and a reshape of the result on the host.

  `B0 … B4` are the contents of a core's unscoped buffers at the five boundaries: the launch memory; after the first
  reshape; after the first region (its arrays at what its write-backs leave, every other buffer as before); after
  the second region likewise; after the last reshape. Each region is entered from every unscoped buffer held at
  the boundary before it and left at the one after it; the run ends with every unscoped buffer at `B4`.
-/
import proofs.«134041_j82325933130247_2_alg».proof.Proof.K.Combine
import proofs.«134041_j82325933130247_2_alg».proof.Proof.K.AccBody
import proofs.«134041_j82325933130247_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

abbrev B0 : Dev nD → Valuation τ sig (Elt F) := fun c b => m (c, b)
abbrev B1 : Dev nD → Valuation τ sig (Elt F) := fun c => StableHlo.after hostOps0 (B0 m c)
abbrev R1 : (c : Dev nD) → (b : Ref sig .tc) → Buf (Elt F) ((c : Thread nD τ).loc b) := fun c b => B1 m c b
def B2 (c : Dev nD) : Valuation τ sig (Elt F) :=
  Pipeline.withArrays spec0 c (B1 m c) fun w => (dat0 (R1 m) c).arrAt w cfg0.N
theorem B2_arr (c : Dev nD) (w : Fin cfg0.W) :
    B2 m c (Proc.devRef .tc (Pipeline.arrRef spec0 w)) = (dat0 (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem exit0_arr (c : Dev nD) (w : Fin cfg0.W) : (dat0 (R1 m) c).arrAt w cfg0.N = R2 m c (Pipeline.arrRef spec0 w) :=
  (B2_arr m c w).symm
theorem exit0_rest (c : Dev nD) : ∀ b, b ∉ Finset.univ.image (Pipeline.arrRef spec0) → R2 m c b = R1 m c b :=
  fun b hb => B2_of_ne m c b fun w e => hb (Finset.mem_image.mpr ⟨w, Finset.mem_univ _, e⟩)

def B3 (c : Dev nD) : Valuation τ sig (Elt F) :=
  Pipeline.withArrays spec1 c (B2 m c) fun w => (dat1 (R2 m) c).arrAt w cfg1.N
theorem B3_arr (c : Dev nD) (w : Fin cfg1.W) :
    B3 m c (Proc.devRef .tc (Pipeline.arrRef spec1 w)) = (dat1 (R2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev R3 : (c : Dev nD) → (b : Ref sig .tc) → Buf (Elt F) ((c : Thread nD τ).loc b) := fun c b => B3 m c b
theorem exit1_arr (c : Dev nD) (w : Fin cfg1.W) : (dat1 (R2 m) c).arrAt w cfg1.N = R3 m c (Pipeline.arrRef spec1 w) :=
  (B3_arr m c w).symm
theorem exit1_rest (c : Dev nD) : ∀ b, b ∉ Finset.univ.image (Pipeline.arrRef spec1) → R3 m c b = R2 m c b :=
  fun b hb => B3_of_ne m c b fun w e => hb (Finset.mem_image.mpr ⟨w, Finset.mem_univ _, e⟩)

abbrev B4 : Dev nD → Valuation τ sig (Elt F) := fun c => StableHlo.after hostOps2 (B3 m c)

/-! ## The argument arrays reach the end as launched -/

theorem B1_keep (c : Dev nD) (r : Ref sig .tc) (h : r ∉ hostOps0_W) : B1 m c r = B0 m c r :=
  StableHlo.after_of_writes_sub hostOps0 _ hostOps0_writes h
theorem B4_keep (c : Dev nD) (r : Ref sig .tc) (h : r ∉ hostOps2_W) : B4 m c r = B3 m c r :=
  StableHlo.after_of_writes_sub hostOps2 _ hostOps2_writes h

theorem B4_main_arg0 (c : Dev nD) : B4 m c (Proc.devRef .tc main_arg0) = m ((c : Thread nD τ).loc main_arg0) :=
  (B4_keep m c main_arg0 (by decide)).trans <| (B3_of_ne m c main_arg0 (by decide)).trans <|
    (B2_of_ne m c main_arg0 (by decide)).trans <| (B1_keep m c main_arg0 (by decide)).trans rfl
theorem B2_main_arg1 (c : Dev nD) : B2 m c (Proc.devRef .tc main_arg1) = m ((c : Thread nD τ).loc main_arg1) :=
  (B2_arr m c 0).trans <| ((dat0 (R1 m) c).arrAt_in 0 rfl _).trans <| (dat0_A (R1 m) c 0).trans <|
    (B1_keep m c main_arg1 (by decide)).trans rfl
theorem B2_main_arg2 (c : Dev nD) : B2 m c (Proc.devRef .tc main_arg2) = m ((c : Thread nD τ).loc main_arg2) :=
  (B2_arr m c 1).trans <| ((dat0 (R1 m) c).arrAt_in 1 rfl _).trans <| (dat0_A (R1 m) c 1).trans <|
    (B1_keep m c main_arg2 (by decide)).trans rfl
theorem B4_main_arg1 (c : Dev nD) : B4 m c (Proc.devRef .tc main_arg1) = m ((c : Thread nD τ).loc main_arg1) :=
  (B4_keep m c main_arg1 (by decide)).trans <| (B3_of_ne m c main_arg1 (by decide)).trans (B2_main_arg1 m c)
theorem B4_main_arg2 (c : Dev nD) : B4 m c (Proc.devRef .tc main_arg2) = m ((c : Thread nD τ).loc main_arg2) :=
  (B4_keep m c main_arg2 (by decide)).trans <| (B3_of_ne m c main_arg2 (by decide)).trans (B2_main_arg2 m c)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (R1 m) c
  | ⟨1, _⟩ => fun c => dat1 (R2 m) c
abbrev 𝒱n : Variants := Variants.none
abbrev Ln : GSem nD τ sig → Finset Unit := fun _ => ∅
abbrev lvn : GSem nD τ sig → Unit → ℕ := fun _ _ => 0
/-- What rides beside the buffers through every segment: the generator register at some state, and nothing owed. -/
abbrev ride (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The weight-combining region: entered from every unscoped buffer at `B1`, left at `B2`. -/
def seg0 : Pipeline.RegionSeg (pcfgs (F := F)) adm' (pdats m) () defs₀ 𝒱n Ln lvn 0 where
  win := launch0.win.to₀
  block_pos := launch0.block_pos
  stage_whole := launch0.stage_whole
  K := PEmpty
  osem k := k.elim
  ho := Pipeline.OwnSemFacts.none _
  hbody c := (obligation0 (R1 m) c).loose
  hwaits := Pipeline.hwaits_of_owed_zero _ _ _ _ Ln lvn 0 fun _ _ => rfl
  pre c := iprop(StableHlo.held (c : Thread nD τ) (Pipeline.ucRefs τ sig) (B1 m c) ∗ ride c)
  post c := iprop(StableHlo.held (c : Thread nD τ) (Pipeline.ucRefs τ sig) (B2 m c) ∗ ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region: entered from every unscoped buffer at `B2`, left at `B3`. The class's invariant enters
    as the invariant before the first point and is given back after the last. -/
def seg1 : Pipeline.RegionSeg (pcfgs (F := F)) adm' (pdats m) () defs₀ 𝒱n Ln lvn 1 where
  win := launch1.win.to₀
  block_pos := launch1.block_pos
  stage_whole := launch1.stage_whole
  K := PEmpty
  osem k := k.elim
  ho := Pipeline.OwnSemFacts.none _
  hbody c := (obligation1 (R2 m) c).loose
  hwaits := Pipeline.hwaits_of_owed_zero _ _ _ _ Ln lvn 1 fun _ _ => rfl
  pre c := iprop(StableHlo.held (c : Thread nD τ) (Pipeline.ucRefs τ sig) (B2 m c) ∗ ride c)
  post c := iprop(StableHlo.held (c : Thread nD τ) (Pipeline.ucRefs τ sig) (B3 m c) ∗ ride c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hmk : (iprop((∃ r, prngReg c r) ∗ Pipeline.prefHeld (pcfgs (F := F) 1).pre c (fun _ => fullShare) (adm' 1).1
          ∗ Pipeline.scopedRest (Pipeline.pin (pcfgs (F := F)) adm' 1).spec c) : sProp 𝕄) ⊢ (Pipeline.ΦA spec1 c : sProp 𝕄) := by
      unfold Pipeline.ΦA
      iintro ⟨Hp, -, Hr⟩
      isplitl [Hr]; · iexact Hr
      iexact Hp
    exact hmk.trans (show (Pipeline.ΦA spec1 c : sProp 𝕄) ⊢ (pdats m 1 c).Φ 0 from enter1 (R2 m) c)
  hout c := by
    have hgive : (Pipeline.ΦA spec1 c : sProp 𝕄) ⊢ iprop((∃ r, prngReg c r) ∗ Pipeline.ownSems0 (fun k : PEmpty => k.elim) c
          ∗ Pipeline.scopedRest (Pipeline.pin (pcfgs (F := F)) adm' 1).spec c) := by
      rw [Pipeline.ownSems0_none]; unfold Pipeline.ΦA
      iintro ⟨Hr, Hp⟩
      isplitl [Hp]; · iexact Hp
      isplitr; · iempintro
      iexact Hr
    exact (show (pdats m 1 c).Φ (Fin.last _) ⊢ (Pipeline.ΦA spec1 c : sProp 𝕄) from leave1 (R2 m) c).trans hgive
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsAll : List (Pipeline.Seg (pcfgs (F := F)) adm' (pdats m) () defs₀ 𝒱n Ln lvn) :=
  [ .host (hseg hostOps0 hostOps0_sub hostOps0_fresh (B0 m)),
    .region (seg0 m),
    .region (seg1 m),
    .host (hseg hostOps2 hostOps2_sub hostOps2_fresh (B3 m)) ]

theorem main_is_segs (c : Dev nD) : main (F := F) c = Pipeline.Seg.run (segsAll m) := (main_chain c).trans (by chain_rfl)

set_option backward.isDefEq.respectTransparency.types false in
/-- Every weakly fair execution of the program from memory `m` with zero counters terminates, nothing faulting, and
    every final memory holds each unscoped buffer of each core at `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm' (pdats m) () cellOf_inj emb₁ defs₀ 𝒱n Ln lvn m ρ main (segsAll m)
    (fun c Q => by rw [main_is_segs m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c))
    (Tₙ := fun c => iprop(StableHlo.held (c : Thread nD τ) (Pipeline.ucRefs τ sig) (B4 m c) ∗ ∃ r, prngReg c r))
    (hch := ⟨fun _ => .rfl, fun _ => .rfl, fun _ => .rfl, fun _ => .rfl, fun c => by
      show (iprop(StableHlo.held (c : Thread nD τ) (Pipeline.ucRefs τ sig) (B4 m c) ∗ ride c) : sProp 𝕄)
        ⊢ iprop(iprop(StableHlo.held (c : Thread nD τ) (Pipeline.ucRefs τ sig) (B4 m c) ∗ ∃ r, prngReg c r)
            ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the three argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c)⟩) (run_all m ρ)

end Cert.Kernel.Hand

end
-- ==== Proof.KI.Combine.lean ====
/-
  The first kernel region: the two weight matrices are combined, block by block, into one matrix.

  The grid is 4 × 4. At point (i, j) the body reads block (i, j) of each weight matrix (1024 × 1024), thresholds
  both at zero, subtracts, transposes, and stores the result whole into its output buffer, which is written back
  as block (j, i) of the combined matrix. There is one control case and nothing is kept between points, so what
  the output buffer holds after the body is one function of the two input blocks (`combOut`).
-/
import proofs.«134041_j82325933130247_2_alg».proof.Proof.Gen.KernelIdeal.Launch
import proofs.«134041_j82325933130247_2_alg».proof.Proof.Gen.KernelIdeal.Skeleton
import proofs.«134041_j82325933130247_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the array the region finds. -/
def wblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first weight matrix's staging buffer holds its block at every point. -/
theorem held0_0 {c : Dev nD} (dat : Dat τ (Elt F) Unit ℕ (UR sig nD τ) ℕ cfg0 c) (hA : dat.A 0 = V c (Pipeline.arrRef spec0 0))
    (hafter : ∀ t, dat.after 0 t = wblk0 V c 0 t) (t : Fin cfg0.N) (d) : dat.before 0 t d = wblk0 V c 0 t :=
  (dat.before_in_eq_fetched 0 rfl (fun _ => rfl) (fun _ _ _ => rfl) (fun t => by rw [hafter]; unfold Dat.blockOf wblk0; rw [hA]; try rfl) t d).trans
    (by unfold Dat.fetched Dat.blockOf wblk0; rw [hA]; try rfl)

/-- The second weight matrix's staging buffer holds its block at every point. -/
theorem held0_1 {c : Dev nD} (dat : Dat τ (Elt F) Unit ℕ (UR sig nD τ) ℕ cfg0 c) (hA : dat.A 1 = V c (Pipeline.arrRef spec0 1))
    (hafter : ∀ t, dat.after 1 t = wblk0 V c 1 t) (t : Fin cfg0.N) (d) : dat.before 1 t d = wblk0 V c 1 t :=
  (dat.before_in_eq_fetched 1 rfl (fun _ => rfl) (fun _ _ _ => rfl) (fun t => by rw [hafter]; unfold Dat.blockOf wblk0; rw [hA]; try rfl) t d).trans
    (by unfold Dat.fetched Dat.blockOf wblk0; rw [hA]; try rfl)

/-- The whole 1024 × 1024 block as a rectangle. -/
abbrev whole1024 : Rect S1024x1024 := Rect.unit (s := S1024x1024) ![0, 0] S1024x1024.size inb_S1024x1024_S1024x1024_0_0

/-- What the body leaves in the output buffer: its one store, of the thresholded, subtracted and transposed blocks. -/
def combOut (x0 x1 : Vec F S1024x1024 .f32) : Vec F S1024x1024 .bf16 :=
  View.canon [⟨whole1024, k0_pay1 (View.ld x0 whole1024) (View.ld x1 whole1024)⟩]

/-- The one store covers the buffer. -/
theorem combCover (p0 : Vec F S1024x1024 .bf16) (y : S1024x1024.Idx) :
    ∃ pc ∈ ([⟨whole1024, p0⟩] : List (View.Piece (Elt F) S1024x1024 .bf16)), y ∈ pc.1.set :=
  View.cover_of_tiled [⟨whole1024, p0⟩] S1024x1024.size (by rfl) y

set_option maxHeartbeats 1000000 in
/-- The body on whole staging buffers: the inputs at `x0`, `x1` and the output at anything run to the inputs as
    they were and the output at `combOut x0 x1`. -/
theorem combTriple (c : Dev nD) (E : Set ℕ) (i : grid0.Coords) (arg2 : Memref sig .tc .vmem S1024x1024 .f32) (harg2 : arg2.IsWhole)
    (arg3 : Memref sig .tc .vmem S1024x1024 .f32) (harg3 : arg3.IsWhole) (arg4 : Memref sig .tc .vmem S1024x1024 .bf16) (harg4 : arg4.IsWhole)
    (x0 x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (combOut x0 x1)) -∗ K ⟨⟩))
      ⊢ wp frame (wpE (defs₀ (F := F)) Variants.none c none) E (cc0__combine_kernel i arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combCover _)

/-- The region's proof data on core `c`: the arrays as found; after the body each input buffer at its block and
    the output buffer at `combOut` of the two blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => wblk0 V c 0 t
    | ⟨1, _⟩ => wblk0 V c 1 t
    | ⟨2, _⟩ => combOut (wblk0 V c 0 t) (wblk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = wblk0 V c 0 t := by dsimp only [dat0]
theorem dat0_after_1 (c : Dev nD) (t : Fin cfg0.N) : (dat0 V c).after 1 t = wblk0 V c 1 t := by dsimp only [dat0]
theorem dat0_after_2 (c : Dev nD) (t : Fin cfg0.N) : (dat0 V c).after 2 t = combOut (wblk0 V c 0 t) (wblk0 V c 1 t) := by dsimp only [dat0]

theorem dat0_before_0 (c : Dev nD) (t : Fin cfg0.N) (d) : (dat0 V c).before 0 t d = wblk0 V c 0 t :=
  held0_0 V (dat0 V c) (dat0_A V c 0) (dat0_after_0 V c) t d
theorem dat0_before_1 (c : Dev nD) (t : Fin cfg0.N) (d) : (dat0 V c).before 1 t d = wblk0 V c 1 t :=
  held0_1 V (dat0 V c) (dat0_A V c 1) (dat0_after_1 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies; the invariant and the
    core's dues pass through unread. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (combTriple c Set.univ _ _ _ _ _ _ _ (wblk0 V c 0 t) (wblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem obligation0 (c : Dev nD) : BodyObligation (dat0 (F := F) V c) (defs₀ (F := F)) Variants.none () Set.univ := fun t => by
  rw [bigSep_W0, bigSep_W0]
  exact body0 V c t

end Cert.KernelIdeal.Hand

end
-- ==== Proof.KI.AccSetup.lean ====
/-
  The second kernel region, its setting: a 2048 × 2048 output block accumulated over sixteen K-steps.

  The grid is 8 × 2 × 16, the last axis innermost. At point (i, j, k) the body reads block (i, k) of the activations
  (2048 × 256) and block (k, j) of the combined weight (256 × 2048); at k = 0 it first fills its scratch accumulator
  with zeros; it adds the product of the two blocks to the accumulator; at k = 15 it copies the accumulator into
  the output buffer, which is written back as block (i, j) only there. So the accumulator is carried from point to
  point, and the output window is idle at the fifteen points of each group of sixteen where k < 15.
-/
import proofs.«134041_j82325933130247_2_alg».proof.Proof.Gen.KernelIdeal.Launch
import proofs.«134041_j82325933130247_2_alg».proof.Proof.Gen.KernelIdeal.Skeleton
import proofs.«134041_j82325933130247_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the array the region finds. -/
def wblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds its block at every point. -/
theorem held1_0 {c : Dev nD} (dat : Dat τ (Elt F) Unit ℕ (UR sig nD τ) ℕ cfg1 c) (hA : dat.A 0 = V c (Pipeline.arrRef spec1 0))
    (hafter : ∀ t, dat.after 0 t = wblk1 V c 0 t) (t : Fin cfg1.N) (d) : dat.before 0 t d = wblk1 V c 0 t :=
  (dat.before_in_eq_fetched 0 rfl (fun _ => rfl) (fun _ _ _ => rfl) (fun t => by rw [hafter]; unfold Dat.blockOf wblk1; rw [hA]; try rfl) t d).trans
    (by unfold Dat.fetched Dat.blockOf wblk1; rw [hA]; try rfl)

/-- The combined weight's staging buffer holds its block at every point. -/
theorem held1_1 {c : Dev nD} (dat : Dat τ (Elt F) Unit ℕ (UR sig nD τ) ℕ cfg1 c) (hA : dat.A 1 = V c (Pipeline.arrRef spec1 1))
    (hafter : ∀ t, dat.after 1 t = wblk1 V c 1 t) (t : Fin cfg1.N) (d) : dat.before 1 t d = wblk1 V c 1 t :=
  (dat.before_in_eq_fetched 1 rfl (fun _ => rfl) (fun _ _ _ => rfl) (fun t => by rw [hafter]; unfold Dat.blockOf wblk1; rw [hA]; try rfl) t d).trans
    (by unfold Dat.fetched Dat.blockOf wblk1; rw [hA]; try rfl)

/-! ## The two conditions of the body, over the grid -/

/-- "This is the first K-step" (k = 0), as the body computes it from the grid coordinates. -/
abbrev first1 (i : grid1.Coords) : Prop :=
  (Scalar.cmpi .ne (Scalar.extui (Scalar.cmpi .eq (BitVec.ofNat 32 (i 2).val) 0#32)) 0#32) = 1#1
/-- It holds at the points ≡ 0 (mod 16). -/
theorem first1_iff : ∀ t : Fin cfg1.N, first1 (grid1.coords t) ↔ t.val % 16 = 0 :=
  (by decide +kernel : ∀ t : Fin grid1.N, first1 (grid1.coords t) ↔ t.val % 16 = 0)

/-- "This is the last K-step" (k = 15). -/
abbrev last1 (i : grid1.Coords) : Prop := k1_cond2 i = 1#1
/-- It holds at the points ≡ 15 (mod 16). -/
theorem last1_iff : ∀ t : Fin cfg1.N, last1 (grid1.coords t) ↔ t.val % 16 = 15 :=
  (by decide +kernel : ∀ t : Fin grid1.N, last1 (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Away from the last K-step the output window is idle, and its block is not written back there. -/
theorem idle1_2 : ∀ t : Fin cfg1.N, ¬last1 (grid1.coords t) → cfg1.idle 2 (grid1.coords t) = true := by decide +kernel
theorem noflush1_2 : ∀ t : Fin cfg1.N, ¬last1 (grid1.coords t) → (cfg1.win 2).flush t = false := by decide +kernel
/-- At the last K-step it is live. -/
theorem live1_2 : ∀ t : Fin cfg1.N, last1 (grid1.coords t) → cfg1.idle 2 (grid1.coords t) = false := by decide +kernel

/-! ## The accumulator and the rest of the scoped buffers -/

/-- The scratch accumulator, a whole scoped buffer of the kernel's own. -/
abbrev accM : Memref sig .tc .vmem S2048x2048 .f32 := Memref.whole cc1_scratch0

/-- The whole 2048 × 2048 block's offsets are zero. -/
theorem zero2 : (![0, 0] : Fin 2 → Nat) = fun _ => 0 := by funext a; fin_cases a <;> rfl

/-- A load of a whole staging buffer through the whole-block rectangle reads its contents (one lemma per block shape). -/
theorem ldA (X : Vec F S2048x256 .f32) :
    View.ld X (Rect.unit (s := S2048x256) ![0, 0] S2048x256.size inb_S2048x256_S2048x256_0_0) = X := View.ld_unit_zero zero2 _ X
theorem ldW (X : Vec F S256x2048 .bf16) :
    View.ld X (Rect.unit (s := S256x2048) ![0, 0] S256x2048.size inb_S256x2048_S256x2048_0_0) = X := View.ld_unit_zero zero2 _ X
theorem ldO (X : Vec F S2048x2048 .f32) :
    View.ld X (Rect.unit (s := S2048x2048) ![0, 0] S2048x2048.size inb_S2048x2048_S2048x2048_0_0) = X := View.ld_unit_zero zero2 _ X

/-- The K-step is a function of its three operands. -/
theorem step_congr {a a' : Vec F S2048x256 .f32} {b b' : Vec F S256x2048 .bf16} {s s' : Vec F S2048x2048 .f32}
    (ha : a = a') (hb : b = b') (hs : s = s') : k1_pay2 a b s = k1_pay2 a' b' s' := by subst ha hb hs; rfl

/-- What rides beside the accumulator through the region: the first region's six staging buffers, at anything, and
    the generator register at some state. -/
def side1 (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f))
    ∗ ∃ r, prngReg c r)

/-- The class invariant (every scoped buffer that is no staging buffer of this region, at anything, and the
    generator register) is the accumulator at anything beside `side1`. -/
theorem open1 (c : Dev nD) : (Pipeline.ΦA spec1 c : sProp 𝕄) ⊢ iprop((∃ d, owns (c : Thread nD τ) accM fullShare d) ∗ side1 c) := by
  unfold Pipeline.ΦA side1; rw [scopedRest1_eq]; simp only [accM, owns_whole]
  iintro ⟨⟨Ha, Hb, Hc, Hd, He, Hf, HS⟩, Hg⟩
  isplitl [HS]; · iexact HS
  isplitr [Hg]
  · isplitl [Ha]; · iexact Ha
    isplitl [Hb]; · iexact Hb
    isplitl [Hc]; · iexact Hc
    isplitl [Hd]; · iexact Hd
    isplitl [He]; · iexact He
    iexact Hf
  iexact Hg

theorem close1 (c : Dev nD) : iprop((∃ d, owns (c : Thread nD τ) accM fullShare d) ∗ side1 c) ⊢ (Pipeline.ΦA spec1 c : sProp 𝕄) := by
  unfold Pipeline.ΦA side1; rw [scopedRest1_eq]; simp only [accM, owns_whole]
  iintro ⟨HS, ⟨Ha, Hb, Hc, Hd, He, Hf⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexact HS
  iexact Hg

end Cert.KernelIdeal.Hand

end
-- ==== Proof.KI.AccFirst.lean ====
/-
  The accumulating kernel's body at a first K-step (k = 0), on whole staging buffers.

  The accumulator, whatever it held, is filled with zeros, reloaded, added to the product of the two input blocks
  and stored back: it ends at `k1_pay2 x0 x1 k1_pay1`, the step applied to the zero block. The output buffer is not
  touched.
-/
import proofs.«134041_j82325933130247_2_alg».proof.Proof.KI.AccSetup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tripleFirst (c : Dev nD) (E : Set ℕ) (i : grid1.Coords) (arg3 : Memref sig .tc .vmem S2048x256 .f32) (harg3 : arg3.IsWhole)
    (arg4 : Memref sig .tc .vmem S256x2048 .bf16) (harg4 : arg4.IsWhole) (arg5 : Memref sig .tc .vmem S2048x2048 .f32) (harg5 : arg5.IsWhole)
    (arg6 : Memref sig .tc .vmem S2048x2048 .f32) (harg6 : arg6.IsWhole) (hc0 : first1 i) (hc1 : ¬ last1 i)
    (x0 : Vec F S2048x256 .f32) (x1 : Vec F S256x2048 .bf16) (xi : Vec F S2048x2048 .f32) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 (k1_pay1 (F := F)))) -∗ K ⟨⟩))
      ⊢ wp frame (wpE (defs₀ (F := F)) Variants.none c none) E (cc1__plinear_kernel i arg3 harg3 arg4 harg4 arg5 harg5 arg6 harg6) K := by
  simp only [cc1__plinear_kernel_eq_skeleton]; unfold cc1__plinear_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  (try sl_unfold_run_names)
  rw [View.read_writes_eq_canon _ _ _ (fun y => ⟨_, List.mem_cons_self, View.mem_set_unit_zero zero2 inb_S2048x2048_S2048x2048_0_0 y⟩), View.canon_cons_unit_zero zero2]
  (try rw [View.readCov_unit_zero _ zero2])
  exact step_congr (ldA (arg3.view.read (Elt F) f0)) (ldW (arg4.view.read (Elt F) f1)) rfl

end Cert.KernelIdeal.Hand

end
-- ==== Proof.KI.AccMid.lean ====
/-
  The accumulating kernel's body at a middle K-step (0 < k < 15), on whole staging buffers.

  The accumulator, found at `xs`, is loaded, added to the product of the two input blocks and stored back: it ends
  at `k1_pay2 x0 x1 xs`. The output buffer is not touched.
-/
import proofs.«134041_j82325933130247_2_alg».proof.Proof.KI.AccSetup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tripleMid (c : Dev nD) (E : Set ℕ) (i : grid1.Coords) (arg3 : Memref sig .tc .vmem S2048x256 .f32) (harg3 : arg3.IsWhole)
    (arg4 : Memref sig .tc .vmem S256x2048 .bf16) (harg4 : arg4.IsWhole) (arg5 : Memref sig .tc .vmem S2048x2048 .f32) (harg5 : arg5.IsWhole)
    (arg6 : Memref sig .tc .vmem S2048x2048 .f32) (harg6 : arg6.IsWhole) (hc0 : ¬ first1 i) (hc1 : ¬ last1 i)
    (x0 : Vec F S2048x256 .f32) (x1 : Vec F S256x2048 .bf16) (xi : Vec F S2048x2048 .f32) (xs : Vec F S2048x2048 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 xs)) -∗ K ⟨⟩))
      ⊢ wp frame (wpE (defs₀ (F := F)) Variants.none c none) E (cc1__plinear_kernel i arg3 harg3 arg4 harg4 arg5 harg5 arg6 harg6) K := by
  simp only [cc1__plinear_kernel_eq_skeleton]; unfold cc1__plinear_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  (try sl_unfold_run_names)
  rw [View.read_writes_eq_canon _ _ _ (fun y => ⟨_, List.mem_cons_self, View.mem_set_unit_zero zero2 inb_S2048x2048_S2048x2048_0_0 y⟩), View.canon_cons_unit_zero zero2]
  (try rw [View.readCov_unit_zero _ zero2])
  exact step_congr (ldA (arg3.view.read (Elt F) f0)) (ldW (arg4.view.read (Elt F) f1)) (ldO (arg6.view.read (Elt F) fs))

end Cert.KernelIdeal.Hand

end
-- ==== Proof.KI.AccLast.lean ====
/-
  The accumulating kernel's body at a last K-step (k = 15), on whole staging buffers.

  The accumulator, found at `xs`, is loaded, added to the product of the two input blocks and stored back, then
  reloaded and copied whole into the output buffer: both end at `k1_pay2 x0 x1 xs`.
-/
import proofs.«134041_j82325933130247_2_alg».proof.Proof.KI.AccSetup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem tripleLast (c : Dev nD) (E : Set ℕ) (i : grid1.Coords) (arg3 : Memref sig .tc .vmem S2048x256 .f32) (harg3 : arg3.IsWhole)
    (arg4 : Memref sig .tc .vmem S256x2048 .bf16) (harg4 : arg4.IsWhole) (arg5 : Memref sig .tc .vmem S2048x2048 .f32) (harg5 : arg5.IsWhole)
    (arg6 : Memref sig .tc .vmem S2048x2048 .f32) (harg6 : arg6.IsWhole) (hc0 : ¬ first1 i) (hc1 : last1 i)
    (x0 : Vec F S2048x256 .f32) (x1 : Vec F S256x2048 .bf16) (xs : Vec F S2048x2048 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k1_pay2 x0 x1 xs)
            ∗ owns (c : Thread nD τ) arg6 fullShare (k1_pay2 x0 x1 xs)) -∗ K ⟨⟩))
      ⊢ wp frame (wpE (defs₀ (F := F)) Variants.none c none) E (cc1__plinear_kernel i arg3 harg3 arg4 harg4 arg5 harg5 arg6 harg6) K := by
  simp only [cc1__plinear_kernel_eq_skeleton]; unfold cc1__plinear_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    (try sl_unfold_run_names)
    rw [View.read_writes_eq_canon _ _ _ (fun y => ⟨_, List.mem_cons_self, View.mem_set_unit_zero zero2 inb_S2048x2048_S2048x2048_0_0 y⟩), View.canon_cons_unit_zero zero2]
    (try rw [View.readCov_unit_zero _ zero2])
    exact step_congr (ldA (arg3.view.read (Elt F) f0)) (ldW (arg4.view.read (Elt F) f1)) (ldO (arg6.view.read (Elt F) fs))
  iexists _; isplitr
  swap; · iexact HS
  ipureintro
  (try sl_unfold_run_names)
  rw [View.read_writes_eq_canon _ _ _ (fun y => ⟨_, List.mem_cons_self, View.mem_set_unit_zero zero2 inb_S2048x2048_S2048x2048_0_0 y⟩), View.canon_cons_unit_zero zero2]
  (try rw [View.readCov_unit_zero _ zero2])
  exact step_congr (ldA (arg3.view.read (Elt F) f0)) (ldW (arg4.view.read (Elt F) f1)) (ldO (arg6.view.read (Elt F) fs))

end Cert.KernelIdeal.Hand

end
-- ==== Proof.KI.AccBody.lean ====
/-
  The second kernel region, point by point.

  `accAt n` is what the scratch accumulator holds after grid point `n`: at a first K-step the step applied to the
  zero block, elsewhere the step applied to what the point before left. The region's invariant before the first
  point is the class's (every scoped buffer at anything); after point `n` it holds the accumulator at `accAt n`.
  The output buffer after a last K-step is the accumulator; elsewhere it is idle and is handed back as found.
-/
import proofs.«134041_j82325933130247_2_alg».proof.Proof.KI.AccFirst
import proofs.«134041_j82325933130247_2_alg».proof.Proof.KI.AccMid
import proofs.«134041_j82325933130247_2_alg».proof.Proof.KI.AccLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One K-step at point `t` on an accumulator `xs`: `xs` plus the product of the point's two input blocks. -/
def stepAt (c : Dev nD) (t : Fin cfg1.N) (xs : Vec F S2048x2048 .f32) : Vec F S2048x2048 .f32 :=
  k1_pay2 (wblk1 V c 0 t) (wblk1 V c 1 t) xs

/-- The accumulator after point `n`. -/
def accAt (c : Dev nD) : (n : ℕ) → n < cfg1.N → Vec F S2048x2048 .f32
  | 0, hn => stepAt V c ⟨0, hn⟩ (k1_pay1 (F := F))
  | n + 1, hn => stepAt V c ⟨n + 1, hn⟩ (if (n + 1) % 16 = 0 then k1_pay1 (F := F) else accAt c n (Nat.lt_of_succ_lt hn))

theorem accAt_first (c : Dev nD) (t : Fin cfg1.N) (h : t.val % 16 = 0) :
    accAt V c t.val t.isLt = stepAt V c t (k1_pay1 (F := F)) := by
  obtain ⟨n, hn⟩ := t
  cases n with
  | zero => rfl
  | succ n => show stepAt V c ⟨n + 1, hn⟩ (if (n + 1) % 16 = 0 then _ else _) = _; rw [if_pos h]

theorem accAt_next (c : Dev nD) (t : Fin cfg1.N) (h : ¬ t.val % 16 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => show stepAt V c ⟨n + 1, hn⟩ (if (n + 1) % 16 = 0 then _ else _) = _; rw [if_neg h]; rfl

/-- The region's invariant before position `n`. -/
def inv1 (c : Dev nD) : (n : ℕ) → n ≤ cfg1.N → sProp 𝕄
  | 0, _ => Pipeline.ΦA spec1 c
  | n + 1, hn => iprop(owns (c : Thread nD τ) accM fullShare (accAt V c n hn) ∗ side1 c)

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(owns (c : Thread nD τ) accM fullShare (accAt V c n hn) ∗ side1 c) := rfl

theorem inv1_pos (c : Dev nD) (n : ℕ) (h : n ≤ cfg1.N) (hz : n ≠ 0) :
    inv1 V c n h = iprop(owns (c : Thread nD τ) accM fullShare (accAt V c (n - 1) (by omega)) ∗ side1 c) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => wblk1 V c 0 t
    | ⟨1, _⟩ => wblk1 V c 1 t
    | ⟨2, _⟩ => accAt V c t.val t.isLt
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem dat1_inv (c : Dev nD) (t : Fin cfg1.N) :
    (dat1 V c).Φ t.castSucc = inv1 V c t.val (Nat.le_of_lt t.isLt) := by
  dsimp only [dat1]; simp only [Fin.coe_castSucc]

theorem dat1_after_0 (c : Dev nD) (t : Fin cfg1.N) : (dat1 V c).after 0 t = wblk1 V c 0 t := by dsimp only [dat1]
theorem dat1_after_1 (c : Dev nD) (t : Fin cfg1.N) : (dat1 V c).after 1 t = wblk1 V c 1 t := by dsimp only [dat1]
theorem dat1_after_2 (c : Dev nD) (t : Fin cfg1.N) : (dat1 V c).after 2 t = accAt V c t.val t.isLt := by dsimp only [dat1]

theorem dat1_before_0 (c : Dev nD) (t : Fin cfg1.N) (d) : (dat1 V c).before 0 t d = wblk1 V c 0 t :=
  held1_0 V (dat1 V c) (dat1_A V c 0) (dat1_after_0 V c) t d
theorem dat1_before_1 (c : Dev nD) (t : Fin cfg1.N) (d) : (dat1 V c).before 1 t d = wblk1 V c 1 t :=
  held1_1 V (dat1 V c) (dat1_A V c 1) (dat1_after_1 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's case. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (st1_0 t) fullShare ((dat1 V c).after 0 t) from by
    unfold Dat.leavesExact; rw [live1_0 t], dat1_after_0]
  rw [show (dat1 V c).leavesExact 1 t = owns (c : Thread nD τ) (st1_1 t) fullShare ((dat1 V c).after 1 t) from by
    unfold Dat.leavesExact; rw [live1_1 t], dat1_after_1]
  have hN : t.val < 256 := lt_of_lt_of_eq t.isLt (show cfg1.N = 256 from N_1)
  by_cases h0 : t.val % 16 = 0
  · -- a first K-step: the accumulator is found at anything
    have hl : ¬ last1 (grid1.coords t) := fun h => by have := (last1_iff t).mp h; omega
    rw [Dat.leavesExact_idle (dat1 V c) 2 t (idle1_2 t hl) (noflush1_2 t hl)]
    rw [accAt_first V c t h0]; unfold stepAt
    have hopen : (dat1 V c).Φ t.castSucc ⊢ iprop((∃ d, owns (c : Thread nD τ) accM fullShare d) ∗ side1 c) := by
      rw [dat1_inv V c t]
      by_cases hz : t.val = 0
      · rw [inv1_zero V c _ _ hz]; exact open1 c
      · rw [inv1_pos V c _ _ hz]
        iintro ⟨HS, Hr⟩
        isplitl [HS]; · iexists _; iexact HS
        iexact Hr
    iintro ⟨HΦ, Ho, ⟨%d0, H0⟩, ⟨%d1, H1⟩, ⟨%d2, H2⟩⟩
    ihave HΦ' := hopen $$ HΦ
    icases HΦ' with ⟨HS, Hr⟩
    iapply (tripleFirst c Set.univ (grid1.coords t) _ _ _ _ _ _ _ _ ((first1_iff t).mpr h0) hl (wblk1 V c 0 t) (wblk1 V c 1 t) ((dat1 V c).before 2 t d2) _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexists d2; iexact H2
  · have hz : t.val ≠ 0 := fun h => h0 (by rw [h])
    have hf : ¬ first1 (grid1.coords t) := fun h => h0 ((first1_iff t).mp h)
    rw [accAt_next V c t h0]; unfold stepAt
    rw [dat1_inv V c t, inv1_pos V c _ _ hz]
    by_cases h1 : t.val % 16 = 15
    · -- a last K-step: the accumulator is copied into the output buffer
      have hl : last1 (grid1.coords t) := (last1_iff t).mpr h1
      rw [show (dat1 V c).leavesExact 2 t = owns (c : Thread nD τ) (st1_2 t) fullShare ((dat1 V c).after 2 t) from by
        unfold Dat.leavesExact; rw [live1_2 t hl], dat1_after_2]
      rw [accAt_next V c t h0]; unfold stepAt
      iintro ⟨⟨HS, Hr⟩, Ho, ⟨%d0, H0⟩, ⟨%d1, H1⟩, ⟨%d2, H2⟩⟩
      iapply (tripleLast c Set.univ (grid1.coords t) _ _ _ _ _ _ _ _ hf hl (wblk1 V c 0 t) (wblk1 V c 1 t) _ _)
      isplitl [H0]; · iexact H0
      isplitl [H1]; · iexact H1
      isplitl [H2]; · iexists _; iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexact H2
    · -- a middle K-step
      have hl : ¬ last1 (grid1.coords t) := fun h => h1 ((last1_iff t).mp h)
      rw [Dat.leavesExact_idle (dat1 V c) 2 t (idle1_2 t hl) (noflush1_2 t hl)]
      iintro ⟨⟨HS, Hr⟩, Ho, ⟨%d0, H0⟩, ⟨%d1, H1⟩, ⟨%d2, H2⟩⟩
      iapply (tripleMid c Set.univ (grid1.coords t) _ _ _ _ _ _ _ _ hf hl (wblk1 V c 0 t) (wblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists d2; iexact H2

/-- The body obligation of the second region, at every point. -/
theorem obligation1 (c : Dev nD) : BodyObligation (dat1 (F := F) V c) (defs₀ (F := F)) Variants.none () Set.univ := fun t => by
  rw [bigSep_W1, bigSep_W1]
  exact body1 V c t

/-- What the launch hands the region is the invariant before the first point. -/
theorem enter1 (c : Dev nD) : (Pipeline.ΦA spec1 c : sProp 𝕄) ⊢ (dat1 V c).Φ 0 := by
  rw [show (dat1 V c).Φ 0 = inv1 V c 0 (Nat.zero_le _) from rfl, inv1_zero V c 0 _ rfl]
  try exact Idealize.SL.BI.Entails.refl _

/-- After the last point the invariant gives the class's back: the accumulator's contents are forgotten. -/
theorem leave1 (c : Dev nD) : (dat1 V c).Φ (Fin.last cfg1.N) ⊢ (Pipeline.ΦA spec1 c : sProp 𝕄) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 256 := N_1; omega)]
  have hforget : (iprop(owns (c : Thread nD τ) accM fullShare (accAt V c ((Fin.last cfg1.N).val - 1) (by rw [Fin.val_last]; have : cfg1.N = 256 := N_1; omega)) ∗ side1 c) : sProp 𝕄)
      ⊢ iprop((∃ d, owns (c : Thread nD τ) accM fullShare d) ∗ side1 c) := by
    iintro ⟨HS, Hr⟩
    isplitl [HS]; · iexists _; iexact HS
    iexact Hr
  exact hforget.trans (close1 c)

end Cert.KernelIdeal.Hand

end
-- ==== Proof.KI.Run.lean ====
/-
  The whole program as four segments: a reshape of the activations on the host, the weight-combining region, the
  accumulating matmul region, and a reshape of the result on the host.

  `B0 … B4` are the contents of a core's unscoped buffers at the five boundaries: the launch memory; after the first
  reshape; after the first region (its arrays at what its write-backs leave, every other buffer as before); after
  the second region likewise; after the last reshape. Each region is entered from every unscoped buffer held at
  the boundary before it and left at the one after it; the run ends with every unscoped buffer at `B4`.
-/
import proofs.«134041_j82325933130247_2_alg».proof.Proof.KI.Combine
import proofs.«134041_j82325933130247_2_alg».proof.Proof.KI.AccBody
import proofs.«134041_j82325933130247_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

abbrev B0 : Dev nD → Valuation τ sig (Elt F) := fun c b => m (c, b)
abbrev B1 : Dev nD → Valuation τ sig (Elt F) := fun c => StableHlo.after hostOps0 (B0 m c)
abbrev R1 : (c : Dev nD) → (b : Ref sig .tc) → Buf (Elt F) ((c : Thread nD τ).loc b) := fun c b => B1 m c b
def B2 (c : Dev nD) : Valuation τ sig (Elt F) :=
  Pipeline.withArrays spec0 c (B1 m c) fun w => (dat0 (R1 m) c).arrAt w cfg0.N
theorem B2_arr (c : Dev nD) (w : Fin cfg0.W) :
    B2 m c (Proc.devRef .tc (Pipeline.arrRef spec0 w)) = (dat0 (R1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev R2 : (c : Dev nD) → (b : Ref sig .tc) → Buf (Elt F) ((c : Thread nD τ).loc b) := fun c b => B2 m c b
theorem exit0_arr (c : Dev nD) (w : Fin cfg0.W) : (dat0 (R1 m) c).arrAt w cfg0.N = R2 m c (Pipeline.arrRef spec0 w) :=
  (B2_arr m c w).symm
theorem exit0_rest (c : Dev nD) : ∀ b, b ∉ Finset.univ.image (Pipeline.arrRef spec0) → R2 m c b = R1 m c b :=
  fun b hb => B2_of_ne m c b fun w e => hb (Finset.mem_image.mpr ⟨w, Finset.mem_univ _, e⟩)

def B3 (c : Dev nD) : Valuation τ sig (Elt F) :=
  Pipeline.withArrays spec1 c (B2 m c) fun w => (dat1 (R2 m) c).arrAt w cfg1.N
theorem B3_arr (c : Dev nD) (w : Fin cfg1.W) :
    B3 m c (Proc.devRef .tc (Pipeline.arrRef spec1 w)) = (dat1 (R2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev R3 : (c : Dev nD) → (b : Ref sig .tc) → Buf (Elt F) ((c : Thread nD τ).loc b) := fun c b => B3 m c b
theorem exit1_arr (c : Dev nD) (w : Fin cfg1.W) : (dat1 (R2 m) c).arrAt w cfg1.N = R3 m c (Pipeline.arrRef spec1 w) :=
  (B3_arr m c w).symm
theorem exit1_rest (c : Dev nD) : ∀ b, b ∉ Finset.univ.image (Pipeline.arrRef spec1) → R3 m c b = R2 m c b :=
  fun b hb => B3_of_ne m c b fun w e => hb (Finset.mem_image.mpr ⟨w, Finset.mem_univ _, e⟩)

abbrev B4 : Dev nD → Valuation τ sig (Elt F) := fun c => StableHlo.after hostOps2 (B3 m c)

/-! ## The argument arrays reach the end as launched -/

theorem B1_keep (c : Dev nD) (r : Ref sig .tc) (h : r ∉ hostOps0_W) : B1 m c r = B0 m c r :=
  StableHlo.after_of_writes_sub hostOps0 _ hostOps0_writes h
theorem B4_keep (c : Dev nD) (r : Ref sig .tc) (h : r ∉ hostOps2_W) : B4 m c r = B3 m c r :=
  StableHlo.after_of_writes_sub hostOps2 _ hostOps2_writes h

theorem B4_main_arg0 (c : Dev nD) : B4 m c (Proc.devRef .tc main_arg0) = m ((c : Thread nD τ).loc main_arg0) :=
  (B4_keep m c main_arg0 (by decide)).trans <| (B3_of_ne m c main_arg0 (by decide)).trans <|
    (B2_of_ne m c main_arg0 (by decide)).trans <| (B1_keep m c main_arg0 (by decide)).trans rfl
theorem B2_main_arg1 (c : Dev nD) : B2 m c (Proc.devRef .tc main_arg1) = m ((c : Thread nD τ).loc main_arg1) :=
  (B2_arr m c 0).trans <| ((dat0 (R1 m) c).arrAt_in 0 rfl _).trans <| (dat0_A (R1 m) c 0).trans <|
    (B1_keep m c main_arg1 (by decide)).trans rfl
theorem B2_main_arg2 (c : Dev nD) : B2 m c (Proc.devRef .tc main_arg2) = m ((c : Thread nD τ).loc main_arg2) :=
  (B2_arr m c 1).trans <| ((dat0 (R1 m) c).arrAt_in 1 rfl _).trans <| (dat0_A (R1 m) c 1).trans <|
    (B1_keep m c main_arg2 (by decide)).trans rfl
theorem B4_main_arg1 (c : Dev nD) : B4 m c (Proc.devRef .tc main_arg1) = m ((c : Thread nD τ).loc main_arg1) :=
  (B4_keep m c main_arg1 (by decide)).trans <| (B3_of_ne m c main_arg1 (by decide)).trans (B2_main_arg1 m c)
theorem B4_main_arg2 (c : Dev nD) : B4 m c (Proc.devRef .tc main_arg2) = m ((c : Thread nD τ).loc main_arg2) :=
  (B4_keep m c main_arg2 (by decide)).trans <| (B3_of_ne m c main_arg2 (by decide)).trans (B2_main_arg2 m c)

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (R1 m) c
  | ⟨1, _⟩ => fun c => dat1 (R2 m) c
abbrev 𝒱n : Variants := Variants.none
abbrev Ln : GSem nD τ sig → Finset Unit := fun _ => ∅
abbrev lvn : GSem nD τ sig → Unit → ℕ := fun _ _ => 0
/-- What rides beside the buffers through every segment: the generator register at some state, and nothing owed. -/
abbrev ride (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The weight-combining region: entered from every unscoped buffer at `B1`, left at `B2`. -/
def seg0 : Pipeline.RegionSeg (pcfgs (F := F)) adm' (pdats m) () defs₀ 𝒱n Ln lvn 0 where
  win := launch0.win.to₀
  block_pos := launch0.block_pos
  stage_whole := launch0.stage_whole
  K := PEmpty
  osem k := k.elim
  ho := Pipeline.OwnSemFacts.none _
  hbody c := (obligation0 (R1 m) c).loose
  hwaits := Pipeline.hwaits_of_owed_zero _ _ _ _ Ln lvn 0 fun _ _ => rfl
  pre c := iprop(StableHlo.held (c : Thread nD τ) (Pipeline.ucRefs τ sig) (B1 m c) ∗ ride c)
  post c := iprop(StableHlo.held (c : Thread nD τ) (Pipeline.ucRefs τ sig) (B2 m c) ∗ ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region: entered from every unscoped buffer at `B2`, left at `B3`. The class's invariant enters
    as the invariant before the first point and is given back after the last. -/
def seg1 : Pipeline.RegionSeg (pcfgs (F := F)) adm' (pdats m) () defs₀ 𝒱n Ln lvn 1 where
  win := launch1.win.to₀
  block_pos := launch1.block_pos
  stage_whole := launch1.stage_whole
  K := PEmpty
  osem k := k.elim
  ho := Pipeline.OwnSemFacts.none _
  hbody c := (obligation1 (R2 m) c).loose
  hwaits := Pipeline.hwaits_of_owed_zero _ _ _ _ Ln lvn 1 fun _ _ => rfl
  pre c := iprop(StableHlo.held (c : Thread nD τ) (Pipeline.ucRefs τ sig) (B2 m c) ∗ ride c)
  post c := iprop(StableHlo.held (c : Thread nD τ) (Pipeline.ucRefs τ sig) (B3 m c) ∗ ride c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hmk : (iprop((∃ r, prngReg c r) ∗ Pipeline.prefHeld (pcfgs (F := F) 1).pre c (fun _ => fullShare) (adm' 1).1
          ∗ Pipeline.scopedRest (Pipeline.pin (pcfgs (F := F)) adm' 1).spec c) : sProp 𝕄) ⊢ (Pipeline.ΦA spec1 c : sProp 𝕄) := by
      unfold Pipeline.ΦA
      iintro ⟨Hp, -, Hr⟩
      isplitl [Hr]; · iexact Hr
      iexact Hp
    exact hmk.trans (show (Pipeline.ΦA spec1 c : sProp 𝕄) ⊢ (pdats m 1 c).Φ 0 from enter1 (R2 m) c)
  hout c := by
    have hgive : (Pipeline.ΦA spec1 c : sProp 𝕄) ⊢ iprop((∃ r, prngReg c r) ∗ Pipeline.ownSems0 (fun k : PEmpty => k.elim) c
          ∗ Pipeline.scopedRest (Pipeline.pin (pcfgs (F := F)) adm' 1).spec c) := by
      rw [Pipeline.ownSems0_none]; unfold Pipeline.ΦA
      iintro ⟨Hr, Hp⟩
      isplitl [Hp]; · iexact Hp
      isplitr; · iempintro
      iexact Hr
    exact (show (pdats m 1 c).Φ (Fin.last _) ⊢ (Pipeline.ΦA spec1 c : sProp 𝕄) from leave1 (R2 m) c).trans hgive
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsAll : List (Pipeline.Seg (pcfgs (F := F)) adm' (pdats m) () defs₀ 𝒱n Ln lvn) :=
  [ .host (hseg hostOps0 hostOps0_sub hostOps0_fresh (B0 m)),
    .region (seg0 m),
    .region (seg1 m),
    .host (hseg hostOps2 hostOps2_sub hostOps2_fresh (B3 m)) ]

theorem main_is_segs (c : Dev nD) : main (F := F) c = Pipeline.Seg.run (segsAll m) := (main_chain c).trans (by chain_rfl)

set_option backward.isDefEq.respectTransparency.types false in
/-- Every weakly fair execution of the program from memory `m` with zero counters terminates, nothing faulting, and
    every final memory holds each unscoped buffer of each core at `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm' (pdats m) () cellOf_inj emb₁ defs₀ 𝒱n Ln lvn m ρ main (segsAll m)
    (fun c Q => by rw [main_is_segs m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c))
    (Tₙ := fun c => iprop(StableHlo.held (c : Thread nD τ) (Pipeline.ucRefs τ sig) (B4 m c) ∗ ∃ r, prngReg c r))
    (hch := ⟨fun _ => .rfl, fun _ => .rfl, fun _ => .rfl, fun _ => .rfl, fun c => by
      show (iprop(StableHlo.held (c : Thread nD τ) (Pipeline.ucRefs τ sig) (B4 m c) ∗ ride c) : sProp 𝕄)
        ⊢ iprop(iprop(StableHlo.held (c : Thread nD τ) (Pipeline.ucRefs τ sig) (B4 m c) ∗ ∃ r, prngReg c r)
            ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the three argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c)⟩) (run_all m ρ)

end Cert.KernelIdeal.Hand

end
-- ==== Proof.Spec.lean ====
/-
  The function both programs compute, index by index, on the extended reals.

  A weight matrix enters only through its hard threshold: `step w` is 1 where `w` is positive and 0 elsewhere.
  With `x : [8, 2048, 4096]` and `wp, wn : [4096, 4096]` (rows = output features, columns = input features),

      y[b, s, o] = ∑ k, x[b, s, k] · (step wp[o, k] − step wn[o, k]).

  The kernel reaches it as one product against the combined weight `step wp − step wn`; the reference as the
  difference of two products, one per weight matrix, which is the same number wherever `x` is finite
  (`sum_mul_sub_split`).
-/
import Idealize.ShloMosaic.PureOps.Ideal
import Idealize.ShloMosaic.Lib.ValueIdx

noncomputable section

namespace Cert.Spec

open Idealize.ShloMosaic Idealize.ShloMosaic.ValueIdx

/-- The hard threshold: 1 on the positive extended reals, 0 elsewhere. -/
def step (w : EReal) : EReal := if 0 < w then 1 else 0

/-- The combined weight at output feature `o`, input feature `k`: a number in {-1, 0, 1}. -/
def comb (wp wn : (⟨2, ![4096, 4096]⟩ : Shape).Idx → EReal) (o k : Fin 4096) : EReal :=
  step (wp (ix2 o k)) - step (wn (ix2 o k))

/-- The result at batch `b`, position `s`, output feature `o`. -/
def Gat (x : (⟨3, ![8, 2048, 4096]⟩ : Shape).Idx → EReal) (wp wn : (⟨2, ![4096, 4096]⟩ : Shape).Idx → EReal)
    (b : Fin 8) (s : Fin 2048) (o : Fin 4096) : EReal :=
  ∑ k : Fin 4096, x (ix3 b s k) * comb wp wn o k

/-- The whole result array as one function of the three argument arrays. -/
def G (x : (⟨3, ![8, 2048, 4096]⟩ : Shape).Idx → EReal) (wp wn : (⟨2, ![4096, 4096]⟩ : Shape).Idx → EReal) :
    (⟨3, ![8, 2048, 4096]⟩ : Shape).Idx → EReal :=
  fun j => Gat x wp wn (j 0) (j 1) (j 2)

theorem G_apply (x : (⟨3, ![8, 2048, 4096]⟩ : Shape).Idx → EReal) (wp wn : (⟨2, ![4096, 4096]⟩ : Shape).Idx → EReal)
    (b : Fin 8) (s : Fin 2048) (o : Fin 4096) : G x wp wn (ix3 b s o) = Gat x wp wn b s o := rfl

/-- An array all of whose entries are real numbers (what the precondition says of each input). -/
def Real' {S : Shape} (f : S.Idx → EReal) : Prop := ∀ i, ∃ r : ℝ, f i = (r : EReal)

end Cert.Spec

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Threshold.lean ====
/-
  The hard threshold, one element at a time, as each program spells it; and the law that turns the reference's
  difference of two products into one product against the combined weight.

  For a real weight `w`: `tanh w` is a real of the sign of `w`, so the one-bit comparison `tanh w > 0`, read as an
  integer and then as a number, is `step w`; and `tanh w + (step w − tanh w) = step w` because every term is real.
  For real `x`, and `a`, `b` real: `∑ x·a − ∑ x·b = ∑ x·(a − b)`. On the extended reals the last law is false in
  general (the two sums may be opposite infinities), which is why every statement here asks for real entries.
-/
import proofs.«134041_j82325933130247_2_alg».proof.Proof.Spec
import proofs.«134041_j82325933130247_2_alg».proof.Proof.LibERealSum
import Idealize.ShloMosaic.PureOps.Ideal.Laws
import Mathlib.Analysis.SpecialFunctions.Trigonometric.DerivHyp

noncomputable section

namespace Cert.Threshold

open Idealize.ShloMosaic
open scoped BigOperators

/-- The hyperbolic tangent of a real is positive exactly when the real is. -/
theorem tanh_pos_iff (r : ℝ) : 0 < Real.tanh r ↔ 0 < r := by
  rw [Real.tanh_eq_sinh_div_cosh, div_pos_iff_of_pos_right (Real.cosh_pos r), Real.sinh_pos_iff]

/-- The threshold of a real is the real 1 or the real 0. -/
theorem step_coe (r : ℝ) : Cert.Spec.step (r : EReal) = (((if 0 < r then 1 else 0 : ℝ)) : EReal) := by
  unfold Cert.Spec.step
  by_cases h : 0 < r
  · rw [if_pos h, if_pos (EReal.coe_pos.2 h)]; rfl
  · rw [if_neg h, if_neg (fun h' => h (EReal.coe_pos.1 h'))]; rfl

/-- The threshold is a real at every extended real. -/
theorem step_real (w : EReal) : ∃ r : ℝ, Cert.Spec.step w = (r : EReal) := by
  unfold Cert.Spec.step
  by_cases h : 0 < w
  · exact ⟨1, by rw [if_pos h]; rfl⟩
  · exact ⟨0, by rw [if_neg h]; rfl⟩

/-- The one-bit comparison `a > 0`, read as an unsigned integer and then as a number, is the threshold of `a`. -/
theorem uitofp_gt_zero (a : Ideal .f32) :
    FloatOps.uitofp (F := Ideal) .f32 (FloatOps.cmpf .ogt a (FloatOps.ofBits (F := Ideal) .f32 0x00000000#32)) = Cert.Spec.step a := by
  rw [Ideal.cmpf_def, Ideal.ofBits_def, Ideal.ofBits_zero_f32]
  unfold Ideal.cmp Cert.Spec.step
  by_cases h : (0 : EReal) < a
  · rw [if_pos h, decide_eq_true h]
    show (((BitVec.ofBool true).toNat : ℝ) : EReal) = 1
    simp
  · rw [if_neg h, decide_eq_false h]
    show (((BitVec.ofBool false).toNat : ℝ) : EReal) = 0
    simp

/-- The reference's weight at a real entry `r`: `tanh r + (step (tanh r) − tanh r)`, which is `step r`. -/
theorem straight_through (w : Ideal .f32) (hw : ∃ r : ℝ, w = (r : EReal)) :
    FloatOps.addf (F := Ideal) (φ := .f32) (FloatOps.hostUnary .tanh w)
      (FloatOps.subf
        (FloatOps.uitofp .f32 (FloatOps.cmpf .ogt (FloatOps.hostUnary (F := Ideal) (φ := .f32) .tanh w)
          (FloatOps.ofBits (F := Ideal) .f32 0x00000000#32)))
        (FloatOps.hostUnary .tanh w)) = Cert.Spec.step w := by
  obtain ⟨r, rfl⟩ := hw
  rw [uitofp_gt_zero, Ideal.hostUnary_tanh_def, Ideal.tanh_coe, Ideal.addf_def, Ideal.subf_def, step_coe, step_coe]
  simp only [tanh_pos_iff]
  rw [← EReal.coe_sub, ← EReal.coe_add]
  exact congrArg _ (by ring)

/-- The kernel's spelling of the same bit: the comparison `a > 0` widened to 32 bits, read as a signed integer, then
    narrowed to bf16 (a change of format, the identity on extended reals). No finiteness is needed. -/
theorem truncf_sitofp_extui_gt_zero (a : Ideal .f32) (h2 : FTy.bits .bf16 < FTy.bits .f32) :
    FloatOps.truncf (F := Ideal) .bf16 h2
      (FloatOps.sitofp (F := Ideal) .f32
        ((FloatOps.cmpf .ogt a (Scalar.ofBits (F := Ideal) .f32 0x00000000#32)).setWidth 32)) = Cert.Spec.step a := by
  rw [Ideal.truncf_def]
  show FloatOps.sitofp (F := Ideal) .f32
    ((FloatOps.cmpf .ogt a (FloatOps.ofBits (F := Ideal) .f32 0x00000000#32)).setWidth 32) = Cert.Spec.step a
  rw [Ideal.cmpf_def, Ideal.ofBits_def, Ideal.ofBits_zero_f32]
  unfold Ideal.cmp Cert.Spec.step
  by_cases h : (0 : EReal) < a
  · rw [if_pos h, decide_eq_true h]
    show (((((BitVec.ofBool true).setWidth 32).toInt : ℤ) : ℝ) : EReal) = 1
    simp
  · rw [if_neg h, decide_eq_false h]
    show (((((BitVec.ofBool false).setWidth 32).toInt : ℤ) : ℝ) : EReal) = 0
    simp

/-- The kernel's thresholded weight block read at an index: the comparison with the zero splat, widened, converted and
    narrowed, is the threshold of the entry. -/
theorem kernel_threshold_apply {S : Shape} (v : FVec Ideal S .f32) (h1 : 1 < 32) (h2 : FTy.bits .bf16 < FTy.bits .f32)
    (j : S.Idx) :
    (truncf .bf16 (sitofp (F := Ideal) .f32
      (extui 32 (cmpf .ogt v (broadcast S (Scalar.ofBits (F := Ideal) .f32 0x00000000#32))) h1)) h2 : FVec Ideal S .bf16) j
      = Cert.Spec.step (v j) :=
  truncf_sitofp_extui_gt_zero (v j) h2

/-- With real entries throughout, the difference of two products is one product against the difference. -/
theorem sum_mul_sub_split {ι : Type*} [Fintype ι] (x a b : ι → EReal)
    (hx : ∀ k, ∃ r : ℝ, x k = (r : EReal)) (ha : ∀ k, ∃ r : ℝ, a k = (r : EReal)) (hb : ∀ k, ∃ r : ℝ, b k = (r : EReal)) :
    (∑ k, x k * a k) - (∑ k, x k * b k) = ∑ k, x k * (a k - b k) := by
  choose xr hxr using hx
  choose ar har using ha
  choose br hbr using hb
  simp only [hxr, har, hbr, ← EReal.coe_mul, ← EReal.coe_sub, Cert.Lib.sum_coe]
  refine congrArg _ ?_
  rw [← Finset.sum_sub_distrib]
  exact Finset.sum_congr rfl fun k _ => (mul_sub _ _ _).symm

end Cert.Threshold

end
-- ==== Proof.KI.CombValue.lean ====
/-
  The value of the first kernel region: the combined weight matrix as one function of the two weight matrices.

  At grid point (i, j) the body reads block (i, j) of each weight matrix, replaces every entry by its threshold
  (`step`: 1 where positive, 0 elsewhere), subtracts, transposes the 1024 × 1024 block, and the result is written
  back as block (j, i) of the output. Entry (p, q) of that block is therefore
  `step w₊[1024·i + q, 1024·j + p] − step w₋[1024·i + q, 1024·j + p]`, and it sits at row `1024·j + p`, column
  `1024·i + q` of the output: the output at (k, o) is the combined weight at output feature `o`, input feature `k`.
  The sixteen blocks tile the 4096 × 4096 output, so that is the whole array. No finiteness is needed.
-/
import proofs.«134041_j82325933130247_2_alg».proof.Proof.KI.Combine
import proofs.«134041_j82325933130247_2_alg».proof.Proof.Threshold
import Idealize.ShloMosaic.Lib.Pipeline.Value
import Idealize.ShloMosaic.Lib.ValueIdx

set_option maxRecDepth 16384

noncomputable section

namespace Cert.KernelIdeal.CombValue

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's payload at block entry (p, q): the thresholds of the two input blocks at the transposed entry (q, p),
    subtracted. -/
theorem pay_apply (x0 x1 : Vec Ideal S1024x1024 .f32) (p q : Fin 1024) :
    k0_pay1 (F := Ideal) x0 x1 (ix2 p q) = Cert.Spec.step (x0 (ix2 q p)) - Cert.Spec.step (x1 (ix2 q p)) := by
  unfold k0_pay1
  refine (transpose_apply [1, 0] _ transposes_S1024x1024_p1_0_S1024x1024 (ix2 p q) (ix2 q p) (fun b => ?_)).trans ?_
  · match b with
    | ⟨0, _⟩ => rfl
    | ⟨1, _⟩ => rfl
  · rw [subf_apply, Cert.Threshold.kernel_threshold_apply, Cert.Threshold.kernel_threshold_apply]

/-- What the body leaves in the output buffer, at block entry (p, q). -/
theorem combOut_apply (x0 x1 : Vec Ideal S1024x1024 .f32) (p q : Fin 1024) :
    Hand.combOut (F := Ideal) x0 x1 (ix2 p q) = Cert.Spec.step (x0 (ix2 q p)) - Cert.Spec.step (x1 (ix2 q p)) := by
  unfold Hand.combOut
  rw [View.canon_unit_zero hz]
  simp only [View.ld_unit_zero (S := S1024x1024) hz]
  exact pay_apply x0 x1 p q

variable (V : (c : Dev nD) → (b : Ref sig .tc) → Buf (Elt Ideal) ((c : Thread nD τ).loc b))

/-- The combined matrix: entry (k, o) is the combined weight at output feature `o`, input feature `k`. -/
abbrev combArr (c : Dev nD) : Buf (Elt Ideal) ((c : Thread nD τ).loc main_v1) :=
  fun i => Cert.Spec.comb (V c main_arg1) (V c main_arg2) (i 1) (i 0)

/-- The index maps over the grid: the output's block (j, i) is the transpose of the inputs' block (i, j). -/
theorem idx_facts : ∀ t : Fin cfg0.N,
    win0_0.index t (0 : Fin 2) = win0_2.index t (1 : Fin 2) ∧ win0_0.index t (1 : Fin 2) = win0_2.index t (0 : Fin 2)
    ∧ win0_1.index t (0 : Fin 2) = win0_2.index t (1 : Fin 2) ∧ win0_1.index t (1 : Fin 2) = win0_2.index t (0 : Fin 2)
    ∧ win0_2.index t (0 : Fin 2) ≤ 3 ∧ win0_2.index t (1 : Fin 2) ≤ 3 :=
  (by decide +kernel : ∀ t : Fin grid0.N, _)

/-- Every block of the output is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

theorem flushed_eq (c : Dev nD) (t : Fin cfg0.N) :
    (Hand.dat0 (F := Ideal) V c).flushed 2 t = ((cfg0.win 2).blk t).view.read (Elt Ideal) (combArr V c) := by
  show (cfg0.win 2).cut (grid0.coords t) ((Hand.dat0 (F := Ideal) V c).after 2 t) = _
  rw [Hand.dat0_after_2]
  funext j
  obtain ⟨p, q, rfl⟩ : ∃ (p q : Fin 1024), j = ix2 p q := ⟨j 0, j 1, eq_ix2 j⟩
  show Hand.combOut (Hand.wblk0 V c 0 t) (Hand.wblk0 V c 1 t) (ix2 p q) = combArr V c (((cfg0.win 2).blk t).view.emb (ix2 p q))
  rw [combOut_apply]
  obtain ⟨e0, e1, e2, e3, -, -⟩ := idx_facts t
  have h0 : Hand.wblk0 V c 0 t (ix2 q p)
      = V c main_arg1 (ix2 ((((cfg0.win 2).blk t).view.emb (ix2 p q)) 1) ((((cfg0.win 2).blk t).view.emb (ix2 p q)) 0)) := by
    show V c main_arg1 (((cfg0.win 0).blk t).view.emb (ix2 q p)) = _
    refine congrArg (V c main_arg1) (funext fun a => Fin.ext ?_)
    match a with
    | ⟨0, _⟩ => show win0_0.index t (0 : Fin 2) * 1024 + 1 * q.val = win0_2.index t (1 : Fin 2) * 1024 + 1 * q.val; omega
    | ⟨1, _⟩ => show win0_0.index t (1 : Fin 2) * 1024 + 1 * p.val = win0_2.index t (0 : Fin 2) * 1024 + 1 * p.val; omega
  have h1 : Hand.wblk0 V c 1 t (ix2 q p)
      = V c main_arg2 (ix2 ((((cfg0.win 2).blk t).view.emb (ix2 p q)) 1) ((((cfg0.win 2).blk t).view.emb (ix2 p q)) 0)) := by
    show V c main_arg2 (((cfg0.win 1).blk t).view.emb (ix2 q p)) = _
    refine congrArg (V c main_arg2) (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 1024 + 1 * p.val = win0_2.index t (0 : Fin 2) * 1024 + 1 * p.val; omega
  rw [h0, h1]
  rfl

/-- An index of the combined matrix is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- The sixteen blocks tile the matrix: index (k, o) is in the block of the point whose output block is (k / 1024, o / 1024). -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE COMBINED MATRIX after the first region: entry (k, o) is `step w₊[o, k] − step w₋[o, k]` of the weight matrices as
    the region finds them. -/
theorem combined_array (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Hand.dat0 (F := Ideal) V c).arrAt 2 Cert.KernelIdeal.cfg0.N
      = fun i => Cert.Spec.comb (V c Cert.KernelIdeal.main_arg1) (V c Cert.KernelIdeal.main_arg2) (i 1) (i 0) :=
  (Hand.dat0 (F := Ideal) V c).arrAt_eq_of_cover 2 (combArr V c) (fun t _ => flushed_eq V c t) cover

end Cert.KernelIdeal.CombValue

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.KI.StepValue.lean ====
/-
  One K-step of the accumulating kernel, read at an index, at the ideal values.

  The step adds to the accumulator the product of a [2048, 256] block of activations and a [256, 2048] block of the
  combined weight. At the ideal values rounding the activations to bf16 changes nothing, the product into the zero
  accumulator at (p, q) is the sum over the 256 contracted positions, and the zero block is zero everywhere:

      step x w acc (p, q) = acc (p, q) + ∑ k < 256, x (p, k) · w (k, q).
-/
import proofs.«134041_j82325933130247_2_alg».proof.Proof.Gen.KernelIdeal.Skeleton
import proofs.«134041_j82325933130247_2_alg».proof.Proof.LibMatmul2
import Idealize.ShloMosaic.Lib.Pipeline.Value
import Idealize.ShloMosaic.Lib.ValueIdx
import Idealize.ShloMosaic.PureOps.Ideal.Laws

noncomputable section

namespace Cert.KernelIdeal.StepValue

open Cert.KernelIdeal Cert.KernelIdeal.Gen
open Idealize.ShloMosaic Idealize.ShloMosaic.ValueIdx

/-- The block the accumulator is reset to is zero everywhere. -/
theorem zero_blk (i : S2048x2048.Idx) : (k1_pay1 (F := Ideal)) i = 0 := by
  unfold k1_pay1
  rw [shapeCast_self]
  exact Ideal.ofBits_zero_f32

/-- The kernel's dimension numbers are those of a plain matrix product. -/
theorem dims_plain :
    dot_S2048x256_S256x2048_S2048x2048_1_0_0_1_n_n = Cert.Lib.plain2 (A := 2048) (K := 256) (B := 2048) Facts₀.dot_S2048x256_S256x2048_S2048x2048_1_0_0_1_n_n_wf := rfl

/-- One K-step at block position (p, q). -/
theorem step_apply (x0 : FVec Ideal S2048x256 .f32) (x1 : FVec Ideal S256x2048 .bf16) (xs : FVec Ideal S2048x2048 .f32)
    (p q : Fin 2048) :
    k1_pay2 x0 x1 xs (ix2 p q) = xs (ix2 p q) + ∑ k : Fin 256, x0 (ix2 p k) * x1 (ix2 k q) := by
  unfold k1_pay2
  simp only [shapeCast_self]
  rw [addf_apply, dims_plain]
  refine congrArg (xs (ix2 p q) + ·) ?_
  exact Cert.Lib.matmul2_zero_apply _ (truncf .bf16 x0 Facts₀.bitsLt_bf16_f32) x1 p q

end Cert.KernelIdeal.StepValue

end
-- ==== Proof.KI.AccValue.lean ====
/-
  The value of the accumulating region at the ideal values: its output array is the matrix product of the two arrays
  it finds.

  With `X` the [16384, 4096] activations and `D` the [4096, 4096] combined weight as the region finds them, grid
  point t = 32·i + 16·j + s reads rows 2048·i … of columns 256·s … of `X` and rows 256·s … of columns 2048·j … of
  `D`. The accumulator after the last K-step of a group of sixteen points is the zero block plus the sixteen
  blocks' products, that is, at (p, q), the sum over all 4096 contracted positions k of
  X (2048·i + p, k) · D (k, 2048·j + q); that block is written back as block (i, j) of the output, and the 8 × 2
  blocks written back tile it.
-/
import proofs.«134041_j82325933130247_2_alg».proof.Proof.KI.AccBody
import proofs.«134041_j82325933130247_2_alg».proof.Proof.KI.StepValue

set_option maxRecDepth 16384

noncomputable section

namespace Cert.KernelIdeal.AccValue

open Cert.KernelIdeal Cert.KernelIdeal.Gen Cert.KernelIdeal.Hand Cert.KernelIdeal.StepValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The activations [16384, 4096] and the combined weight [4096, 4096] as the region finds them, as real-valued arrays. -/
abbrev Xarr (c : Dev nD) : S16384x4096.Idx → EReal := V c main_v0
abbrev Darr (c : Dev nD) : S4096x4096.Idx → EReal := V c main_v1
/-- Their blocks at grid point `t`. -/
abbrev xblk (c : Dev nD) (t : Fin cfg1.N) : S2048x256.Idx → EReal := wblk1 V c 0 t
abbrev dblk (c : Dev nD) (t : Fin cfg1.N) : S256x2048.Idx → EReal := wblk1 V c 1 t

/-! ## The blocks the points read -/

/-- The index maps over the grid: point t = 32·i + 16·j + s reads block (i, s) of the activations, block (s, j) of the
    combined weight, and owns block (i, j) of the output. -/
theorem index_facts : ∀ t : Fin cfg1.N,
    win1_0.index t 0 = t.val / 32 ∧ win1_0.index t 1 = t.val % 16
    ∧ win1_1.index t 0 = t.val % 16 ∧ win1_1.index t 1 = t.val / 16 % 2
    ∧ win1_2.index t 0 = t.val / 32 ∧ win1_2.index t 1 = t.val / 16 % 2 :=
  (by decide +kernel : ∀ t : Fin grid1.N, _)

/-- The activations' block at point `t`, entry (p, k'), is the array's entry (2048·(t / 32) + p, 256·(t % 16) + k'). -/
theorem xblock_apply (c : Dev nD) (t : Fin cfg1.N) (y : S2048x256.Idx) (j : S16384x4096.Idx)
    (h0 : (j 0).val = 2048 * (t.val / 32) + (y 0).val) (h1 : (j 1).val = 256 * (t.val % 16) + (y 1).val) :
    xblk V c t y = Xarr V c j := by
  have hi := index_facts t
  unfold xblk Xarr wblk1
  rw [View.read_apply]
  show V c main_v0 _ = V c main_v0 j
  congr 1
  funext a
  apply Fin.ext
  match a with
  | ⟨0, _⟩ => show win1_0.index t 0 * 2048 + 1 * (y 0).val = (j 0).val; rw [hi.1]; omega
  | ⟨1, _⟩ => show win1_0.index t 1 * 256 + 1 * (y 1).val = (j 1).val; rw [hi.2.1]; omega

/-- The combined weight's block at point `t`, entry (k', q), is the array's entry (256·(t % 16) + k', 2048·(t / 16 % 2) + q). -/
theorem wblock_apply (c : Dev nD) (t : Fin cfg1.N) (y : S256x2048.Idx) (j : S4096x4096.Idx)
    (h0 : (j 0).val = 256 * (t.val % 16) + (y 0).val) (h1 : (j 1).val = 2048 * (t.val / 16 % 2) + (y 1).val) :
    dblk V c t y = Darr V c j := by
  have hi := index_facts t
  unfold dblk Darr wblk1
  rw [View.read_apply]
  show V c main_v1 _ = V c main_v1 j
  congr 1
  funext a
  apply Fin.ext
  match a with
  | ⟨0, _⟩ => show win1_1.index t 0 * 256 + 1 * (y 0).val = (j 0).val; rw [hi.2.2.1]; omega
  | ⟨1, _⟩ => show win1_1.index t 1 * 2048 + 1 * (y 1).val = (j 1).val; rw [hi.2.2.2.1]; omega

/-! ## The product array, and one point's share of it -/

/-- The matrix product of the two arrays at row `r`, column `o`. -/
def prodAt (c : Dev nD) (r : Fin 16384) (o : Fin 4096) : EReal :=
  ∑ k : Fin 4096, Xarr V c (ix2 r k) * Darr V c (ix2 k o)

/-- The product array. -/
def prodArr (c : Dev nD) : S16384x4096.Idx → EReal := fun i => prodAt V c (i 0) (i 1)

theorem prodArr_apply (c : Dev nD) (r : Fin 16384) (o : Fin 4096) : prodArr V c (ix2 r o) = prodAt V c r o := rfl

/-- What K-step `s` of output block (I, J) contributes at block position (p, q): the 256 products of its slice of
    the contraction. -/
def share (c : Dev nD) (I : Fin 8) (J : Fin 2) (s : Fin 16) (p q : Fin 2048) : EReal :=
  ∑ k : Fin 256, Xarr V c (ix2 (⟨2048 * I.val + p.val, by omega⟩ : Fin 16384) (⟨256 * s.val + k.val, by omega⟩ : Fin 4096))
    * Darr V c (ix2 (⟨256 * s.val + k.val, by omega⟩ : Fin 4096) (⟨2048 * J.val + q.val, by omega⟩ : Fin 4096))

/-- The sixteen shares of a block position add up to the product there: the contraction's 4096 positions are the
    sixteen slices of 256. -/
theorem sum_shares (c : Dev nD) (I : Fin 8) (J : Fin 2) (p q : Fin 2048) :
    ∑ s : Fin 16, share V c I J s p q
      = prodAt V c (⟨2048 * I.val + p.val, by omega⟩ : Fin 16384) (⟨2048 * J.val + q.val, by omega⟩ : Fin 4096) := by
  unfold share prodAt
  rw [← Finset.sum_product' (s := (Finset.univ : Finset (Fin 16))) (t := (Finset.univ : Finset (Fin 256)))]
  rw [Finset.univ_product_univ]
  refine (Fintype.sum_equiv (finProdFinEquiv (m := 16) (n := 256)) _
    (fun k : Fin 4096 => Xarr V c (ix2 (⟨2048 * I.val + p.val, by omega⟩ : Fin 16384) k)
      * Darr V c (ix2 k (⟨2048 * J.val + q.val, by omega⟩ : Fin 4096))) ?_)
  rintro ⟨s, k⟩
  have e : (finProdFinEquiv (m := 16) (n := 256) (s, k)) = (⟨256 * s.val + k.val, by omega⟩ : Fin 4096) := by
    apply Fin.ext; show k.val + 256 * s.val = 256 * s.val + k.val; omega
  show _ = Xarr V c (ix2 _ (finProdFinEquiv (s, k))) * Darr V c (ix2 (finProdFinEquiv (s, k)) _)
  rw [e]

/-! ## One K-step, the fold over a group of sixteen, and the block written back -/

/-- What point `n` adds at block position (p, q): the products of its two blocks' row p and column q (zero past the grid). -/
def addendAt (c : Dev nD) (n : ℕ) (p q : Fin 2048) : EReal :=
  if h : n < cfg1.N then
    ∑ k : Fin 256, xblk V c ⟨n, h⟩ (ix2 p k) * dblk V c ⟨n, h⟩ (ix2 k q)
  else 0

/-- The same as a function of the block index. -/
def addend (c : Dev nD) (n : ℕ) (i : S2048x2048.Idx) : EReal := addendAt V c n (i 0) (i 1)

/-- The K-step at point `t` adds the point's addend to the accumulator. -/
theorem stepAt_apply (c : Dev nD) (t : Fin cfg1.N) (xs : Vec Ideal S2048x2048 .f32) (i : S2048x2048.Idx) :
    stepAt V c t xs i = xs i + addend V c t.val i := by
  obtain ⟨p, q, rfl⟩ : ∃ (p q : Fin 2048), i = ix2 p q := ⟨i 0, i 1, eq_ix2 i⟩
  show stepAt V c t xs (ix2 p q) = xs (ix2 p q) + addendAt V c t.val p q
  unfold stepAt addendAt
  rw [dif_pos t.isLt]
  exact step_apply _ _ _ p q

/-- The accumulator at a first K-step, and its step elsewhere, as functions of the point. -/
def resetAt (c : Dev nD) (n : ℕ) (h : n < cfg1.N) : Vec Ideal S2048x2048 .f32 := stepAt V c ⟨n, h⟩ (k1_pay1 (F := Ideal))
def nextAt (c : Dev nD) (n : ℕ) (h : n < cfg1.N) (acc : Vec Ideal S2048x2048 .f32) : Vec Ideal S2048x2048 .f32 := stepAt V c ⟨n, h⟩ acc

/-- The accumulator after point `t` is the fold over its group of sixteen, from the group's first point up to `t`. -/
theorem acc_is_fold (c : Dev nD) (t : Fin cfg1.N) (hb : 16 * (t.val / 16) + t.val % 16 < cfg1.N) :
    accAt V c t.val t.isLt = Pipeline.accAt (resetAt V c) (nextAt V c) (16 * (t.val / 16)) (t.val % 16) hb :=
  Pipeline.eq_accAt_of_mod (accAt V c) 16 (resetAt V c) (nextAt V c)
    (fun n h hm => accAt_first V c ⟨n, h⟩ hm) (fun n h hm => accAt_next V c ⟨n + 1, h⟩ hm) (by decide) t.val t.isLt hb

/-- The fold at a block index: the addends of the points it ran through. -/
theorem fold_apply (c : Dev nD) (b j : ℕ) (hj : j ≤ 15) (h : b + j < cfg1.N) (i : S2048x2048.Idx) :
    Pipeline.accAt (resetAt V c) (nextAt V c) b j h i = 0 + ∑ s ∈ Finset.range (j + 1), addend V c (b + s) i :=
  Pipeline.accAt_add_apply (ι := S2048x2048.Idx) (β := EReal) (resetAt V c) (nextAt V c) (fun _ => 0) (addend V c) b 15
    (fun h i => by unfold resetAt; rw [stepAt_apply, zero_blk])
    (fun n h acc i _ _ => by unfold nextAt; exact stepAt_apply V c ⟨n, h⟩ acc i) j hj h i

/-- A point's addend is its K-step's share of its output block. -/
theorem addend_eq_share (c : Dev nD) (n : ℕ) (hn : n < cfg1.N) (I : Fin 8) (J : Fin 2) (s : Fin 16)
    (hI : n / 32 = I.val) (hJ : n / 16 % 2 = J.val) (hs : n % 16 = s.val) (p q : Fin 2048) :
    addendAt V c n p q = share V c I J s p q := by
  unfold addendAt share
  rw [dif_pos hn]
  refine Finset.sum_congr rfl fun k _ => ?_
  rw [xblock_apply V c ⟨n, hn⟩ (ix2 p k) (ix2 (⟨2048 * I.val + p.val, by omega⟩ : Fin 16384) (⟨256 * s.val + k.val, by omega⟩ : Fin 4096))
      (by show 2048 * I.val + p.val = 2048 * (n / 32) + p.val; rw [hI]) (by show 256 * s.val + k.val = 256 * (n % 16) + k.val; rw [hs]),
    wblock_apply V c ⟨n, hn⟩ (ix2 k q) (ix2 (⟨256 * s.val + k.val, by omega⟩ : Fin 4096) (⟨2048 * J.val + q.val, by omega⟩ : Fin 4096))
      (by show 256 * s.val + k.val = 256 * (n % 16) + k.val; rw [hs]) (by show 2048 * J.val + q.val = 2048 * (n / 16 % 2) + q.val; rw [hJ])]

/-- At a last K-step the accumulator holds, at (p, q), the product array's entry of its output block. -/
theorem acc_block (c : Dev nD) (t : Fin cfg1.N) (h15 : t.val % 16 = 15) (p q : Fin 2048)
    (hr : 2048 * (t.val / 32) + p.val < 16384) (ho : 2048 * (t.val / 16 % 2) + q.val < 4096) :
    accAt V c t.val t.isLt (ix2 p q) = prodAt V c ⟨2048 * (t.val / 32) + p.val, hr⟩ ⟨2048 * (t.val / 16 % 2) + q.val, ho⟩ := by
  have hN : cfg1.N = 256 := N_1
  have ht : t.val < 256 := lt_of_lt_of_eq t.isLt hN
  have hb : 16 * (t.val / 16) + t.val % 16 < cfg1.N := by rw [Nat.div_add_mod]; exact t.isLt
  rw [acc_is_fold V c t hb, fold_apply V c _ _ (by omega) hb, zero_add, h15, Finset.sum_range]
  rw [← sum_shares V c ⟨t.val / 32, by omega⟩ ⟨t.val / 16 % 2, by omega⟩ p q]
  refine Finset.sum_congr rfl fun s _ => ?_
  show addendAt V c (16 * (t.val / 16) + s.val) p q = _
  have hs : s.val < 16 := s.isLt
  exact addend_eq_share V c _ (by omega) ⟨t.val / 32, by omega⟩ ⟨t.val / 16 % 2, by omega⟩ s
    (by show (16 * (t.val / 16) + s.val) / 32 = t.val / 32; omega)
    (by show (16 * (t.val / 16) + s.val) / 16 % 2 = t.val / 16 % 2; omega)
    (by show (16 * (t.val / 16) + s.val) % 16 = s.val; omega) p q

/-- The same over a block index `y` and the array index `i` it sits at. -/
theorem acc_at_idx (c : Dev nD) (t : Fin cfg1.N) (h15 : t.val % 16 = 15) (y : S2048x2048.Idx) (i : S16384x4096.Idx)
    (h0 : (i 0).val = 2048 * (t.val / 32) + (y 0).val) (h1 : (i 1).val = 2048 * (t.val / 16 % 2) + (y 1).val) :
    accAt V c t.val t.isLt y = prodArr V c i := by
  obtain ⟨p, q, rfl⟩ : ∃ (p q : Fin 2048), y = ix2 p q := ⟨y 0, y 1, eq_ix2 y⟩
  have hr : 2048 * (t.val / 32) + p.val < 16384 := by
    have hI : (i 0).val < 16384 := (i 0).isLt
    have e : (i 0).val = 2048 * (t.val / 32) + p.val := h0
    omega
  have ho : 2048 * (t.val / 16 % 2) + q.val < 4096 := by
    have hI : (i 1).val < 4096 := (i 1).isLt
    have e : (i 1).val = 2048 * (t.val / 16 % 2) + q.val := h1
    omega
  rw [acc_block V c t h15 p q hr ho]
  show prodAt V c _ _ = prodAt V c (i 0) (i 1)
  have e0 : (⟨2048 * (t.val / 32) + p.val, hr⟩ : Fin 16384) = i 0 := Fin.ext h0.symm
  have e1 : (⟨2048 * (t.val / 16 % 2) + q.val, ho⟩ : Fin 4096) = i 1 := Fin.ext h1.symm
  rw [e0, e1]

/-! ## The output array -/

/-- What a last K-step writes back is its block of the product array. -/
theorem flushed_prod (c : Dev nD) (t : Fin cfg1.N) (hf : (cfg1.win 2).flush t = true) :
    (dat1 V c).flushed 2 t = ((cfg1.win 2).blk t).view.read (Elt Ideal) (prodArr V c) := by
  have h15 : t.val % 16 = 15 := (flush1_2 t).mp hf
  have hi := index_facts t
  show (cfg1.win 2).cut (grid1.coords t) ((dat1 V c).after 2 t) = _
  rw [dat1_after_2]
  funext j
  show accAt V c t.val t.isLt j = prodArr V c (((cfg1.win 2).blk t).view.emb j)
  refine acc_at_idx V c t h15 j _ ?_ ?_
  · show win1_2.index t 0 * 2048 + 1 * (j 0).val = 2048 * (t.val / 32) + (j 0).val; rw [hi.2.2.2.2.1]; omega
  · show win1_2.index t 1 * 2048 + 1 * (j 1).val = 2048 * (t.val / 16 % 2) + (j 1).val; rw [hi.2.2.2.2.2]; omega

/-- An index of the output array is in point `t`'s block iff each coordinate is in the block's range on its axis. -/
theorem mem_out (t : Fin cfg1.N) (i : S16384x4096.Idx) :
    i ∈ ((cfg1.win 2).blk t).view.set ↔ ∀ a : Fin 2, win1_2.index t a * S2048x2048.size a ≤ (i a).val ∧ (i a).val < win1_2.index t a * S2048x2048.size a + S2048x2048.size a := by
  show i ∈ ((View.whole main_v2).slice (win1_2.rect t)).set ↔ _
  rw [View.set_slice_whole, Rect.mem_set_unit]
  exact Iff.rfl

/-- Every index of the output array lies in the block some last K-step writes back. -/
theorem cover_out (i : S16384x4096.Idx) :
    ∃ t : Fin cfg1.N, (cfg1.win 2).flush t = true ∧ i ∈ ((cfg1.win 2).blk t).view.set := by
  have h0 : (i 0).val < 16384 := (i 0).isLt
  have h1 : (i 1).val < 4096 := (i 1).isLt
  have hN : cfg1.N = 256 := N_1
  have hlt : 32 * ((i 0).val / 2048) + 16 * ((i 1).val / 2048) + 15 < cfg1.N := by rw [hN]; omega
  refine ⟨⟨32 * ((i 0).val / 2048) + 16 * ((i 1).val / 2048) + 15, hlt⟩, (flush1_2 _).mpr (by show (32 * ((i 0).val / 2048) + 16 * ((i 1).val / 2048) + 15) % 16 = 15; omega), ?_⟩
  have hi := index_facts ⟨32 * ((i 0).val / 2048) + 16 * ((i 1).val / 2048) + 15, hlt⟩
  rw [mem_out]
  intro a
  match a with
  | ⟨0, _⟩ =>
    show win1_2.index _ 0 * 2048 ≤ (i 0).val ∧ (i 0).val < win1_2.index _ 0 * 2048 + 2048
    rw [hi.2.2.2.2.1]
    show (32 * ((i 0).val / 2048) + 16 * ((i 1).val / 2048) + 15) / 32 * 2048 ≤ (i 0).val ∧ (i 0).val < (32 * ((i 0).val / 2048) + 16 * ((i 1).val / 2048) + 15) / 32 * 2048 + 2048
    omega
  | ⟨1, _⟩ =>
    show win1_2.index _ 1 * 2048 ≤ (i 1).val ∧ (i 1).val < win1_2.index _ 1 * 2048 + 2048
    rw [hi.2.2.2.2.2]
    show (32 * ((i 0).val / 2048) + 16 * ((i 1).val / 2048) + 15) / 16 % 2 * 2048 ≤ (i 1).val ∧ (i 1).val < (32 * ((i 0).val / 2048) + 16 * ((i 1).val / 2048) + 15) / 16 % 2 * 2048 + 2048
    omega

/-- The output array after the region is the product of the two arrays the region finds. -/
theorem product_array (c : Dev nD) : (dat1 V c).arrAt 2 cfg1.N = prodArr V c :=
  (dat1 V c).arrAt_eq_of_cover 2 (prodArr V c) (fun t hf => flushed_prod V c t hf) cover_out

end Cert.KernelIdeal.AccValue

end
-- ==== Proof.KI.Final.lean ====
/-
  The result array of the whole program is the specification of the three launch arrays.

  The program merges the first two axes of the activations `x` ([8, 2048, 4096] → [16384, 4096]: row `2048·b + s` is
  position (b, s)), combines the two weight matrices into `D[k, o] = step w₊[o, k] − step w₋[o, k]`, forms the
  product `P[r, o] = ∑ₖ X[r, k] · D[k, o]`, and splits the first axis of the product again. Entry (b, s, o) of the
  result is therefore `∑ₖ x[b, s, k] · (step w₊[o, k] − step w₋[o, k])`. Each step is read at an index; no array is
  unfolded, and no finiteness is needed.
-/
import proofs.«134041_j82325933130247_2_alg».proof.Proof.KI.Run
import proofs.«134041_j82325933130247_2_alg».proof.Proof.KI.CombValue
import proofs.«134041_j82325933130247_2_alg».proof.Proof.KI.AccValue
import proofs.«134041_j82325933130247_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The activations as the second region finds them are the launch activations with the first two axes merged. -/
theorem v0_eq (c : Dev nD) : Hand.R2 (F := Ideal) m c main_v0
    = shapeCast S16384x4096 (m ((c.tc : Thread nD τ).loc main_arg0)) shapeCasts_S8x2048x4096_S16384x4096 := by
  refine (Hand.B2_of_ne m c main_v0 (by decide)).trans ?_
  show StableHlo.after hostOps0 (Hand.B0 m c) (Proc.devRef .tc main_v0) = _
  after_results
  rfl

/-- Row `2048·b + s`, column `k` of the merged activations is entry (b, s, k) of the launch activations. -/
theorem v0_apply (c : Dev nD) (b : Fin 8) (s : Fin 2048) (k : Fin 4096) (r : Fin 16384) (hr : r.val = 2048 * b.val + s.val) :
    Hand.R2 (F := Ideal) m c main_v0 (ix2 r k) = m ((c.tc : Thread nD τ).loc main_arg0) (ix3 b s k) := by
  rw [v0_eq]
  refine shapeCast_apply _ _ (ix2 r k) (ix3 b s k) ?_
  rw [Shape.rowMajor_val_two, Shape.rowMajor_val_three]
  show (b.val * 2048 + s.val) * 4096 + k.val = r.val * 4096 + k.val
  rw [hr]; ring

/-- The weight matrices reach the first region as launched. -/
theorem arg1_eq (c : Dev nD) : Hand.R1 (F := Ideal) m c main_arg1 = m ((c.tc : Thread nD τ).loc main_arg1) :=
  (Hand.B1_keep m c main_arg1 (by decide)).trans rfl
theorem arg2_eq (c : Dev nD) : Hand.R1 (F := Ideal) m c main_arg2 = m ((c.tc : Thread nD τ).loc main_arg2) :=
  (Hand.B1_keep m c main_arg2 (by decide)).trans rfl

/-- The combined weight as the second region finds it: entry (k, o) is the combined weight of the launch matrices at
    output feature `o`, input feature `k`. -/
theorem v1_eq (c : Dev nD) : Hand.R2 (F := Ideal) m c main_v1
    = fun i => Cert.Spec.comb (m ((c.tc : Thread nD τ).loc main_arg1)) (m ((c.tc : Thread nD τ).loc main_arg2)) (i 1) (i 0) := by
  refine (Hand.B2_arr m c 2).trans ?_
  rw [CombValue.combined_array (Hand.R1 m) c, arg1_eq, arg2_eq]

theorem v1_apply (c : Dev nD) (k o : Fin 4096) : Hand.R2 (F := Ideal) m c main_v1 (ix2 k o)
    = Cert.Spec.comb (m ((c.tc : Thread nD τ).loc main_arg1)) (m ((c.tc : Thread nD τ).loc main_arg2)) o k := by
  rw [v1_eq]
  rfl

/-- The result array is the second region's output with its first axis split in two. -/
theorem v3_eq (c : Dev nD) : Hand.B4 (F := Ideal) m c (Proc.devRef .tc main_v3)
    = shapeCast S8x2048x4096 (Hand.B3 (F := Ideal) m c (Proc.devRef .tc main_v2)) shapeCasts_S16384x4096_S8x2048x4096 := by
  show StableHlo.after hostOps2 (Hand.B3 m c) (Proc.devRef .tc main_v3) = _
  after_results
  rfl

/-- Entry (b, s, o) of the result is row `2048·b + s`, column `o` of the second region's output. -/
theorem v3_apply (c : Dev nD) (b : Fin 8) (s : Fin 2048) (o : Fin 4096) (r : Fin 16384) (hr : r.val = 2048 * b.val + s.val) :
    Hand.B4 (F := Ideal) m c (Proc.devRef .tc main_v3) (ix3 b s o) = Hand.B3 (F := Ideal) m c (Proc.devRef .tc main_v2) (ix2 r o) := by
  rw [v3_eq]
  refine shapeCast_apply _ _ (ix3 b s o) (ix2 r o) ?_
  rw [Shape.rowMajor_val_two, Shape.rowMajor_val_three]
  show r.val * 4096 + o.val = (b.val * 2048 + s.val) * 4096 + o.val
  rw [hr]; ring

/-- The same two reads under the names the second region's value uses for the arrays it finds. -/
theorem x_apply (c : Dev nD) (b : Fin 8) (s : Fin 2048) (k : Fin 4096) (r : Fin 16384) (hr : r.val = 2048 * b.val + s.val) :
    AccValue.Xarr (Hand.R2 (F := Ideal) m) c (ix2 r k) = m ((c.tc : Thread nD τ).loc main_arg0) (ix3 b s k) :=
  v0_apply m c b s k r hr
theorem d_apply (c : Dev nD) (k o : Fin 4096) : AccValue.Darr (Hand.R2 (F := Ideal) m) c (ix2 k o)
    = Cert.Spec.comb (m ((c.tc : Thread nD τ).loc main_arg1)) (m ((c.tc : Thread nD τ).loc main_arg2)) o k :=
  v1_apply m c k o

/-- The second region's output is the product of the merged activations and the combined weight. -/
theorem v2_eq (c : Dev nD) : Hand.B3 (F := Ideal) m c (Proc.devRef .tc main_v2) = AccValue.prodArr (Hand.R2 m) c :=
  (Hand.B3_arr m c 2).trans (AccValue.product_array (Hand.R2 m) c)

theorem v2_apply (c : Dev nD) (r : Fin 16384) (o : Fin 4096) :
    Hand.B3 (F := Ideal) m c (Proc.devRef .tc main_v2) (ix2 r o) = AccValue.prodAt (Hand.R2 m) c r o := by
  rw [v2_eq, AccValue.prodArr_apply]

/-- THE RESULT ARRAY of the whole program is the specification of the three launch arrays. -/
theorem result_array (m : (ℓ : Loc Cert.KernelIdeal.nD Cert.KernelIdeal.τ Cert.KernelIdeal.sig) → Buf (Elt Ideal) ℓ)
    (c : Dev Cert.KernelIdeal.nD) :
    Cert.KernelIdeal.Hand.B4 (F := Ideal) m c (Proc.devRef .tc Cert.KernelIdeal.main_v3)
      = Cert.Spec.G (m ((c.tc : Thread Cert.KernelIdeal.nD Cert.KernelIdeal.τ).loc Cert.KernelIdeal.main_arg0))
          (m ((c.tc : Thread _ _).loc Cert.KernelIdeal.main_arg1)) (m ((c.tc : Thread _ _).loc Cert.KernelIdeal.main_arg2)) := by
  funext i
  obtain ⟨b, s, o, rfl⟩ : ∃ (b : Fin 8) (s : Fin 2048) (o : Fin 4096), i = ix3 b s o := ⟨i 0, i 1, i 2, eq_ix3 i⟩
  have hb : b.val < 8 := b.isLt
  have hs : s.val < 2048 := s.isLt
  rw [v3_apply m c b s o ⟨2048 * b.val + s.val, by omega⟩ rfl, v2_apply, Cert.Spec.G_apply]
  unfold AccValue.prodAt Cert.Spec.Gat
  refine Finset.sum_congr (M := EReal) rfl fun k _ => ?_
  rw [x_apply m c b s k _ rfl, d_apply]

end Cert.KernelIdeal.Final

end
-- ==== Proof.RefSide.lean ====
/-
  The reference computes the specification.

  Each weight matrix goes through `t = tanh w`, `b = (t > 0)` read as a number, `w' = t + (b − t)`; at a real entry
  that is `step w`. The result is the difference of the two products `∑ₖ x[b,s,k]·w'₊[o,k] − ∑ₖ x[b,s,k]·w'₋[o,k]`,
  which for real `x` is the one product `∑ₖ x[b,s,k]·(step w₊[o,k] − step w₋[o,k])`.
-/
import proofs.«134041_j82325933130247_2_alg».proof.Proof.Gen.ReferenceIdeal.Read
import proofs.«134041_j82325933130247_2_alg».proof.Proof.Threshold

noncomputable section

namespace Cert.RefSide

open Cert.ReferenceIdeal Cert.ReferenceIdeal.Read Idealize.ShloMosaic Idealize.ShloMosaic.ValueIdx
open scoped BigOperators

/-- The first weight operand after the straight-through threshold, at a real entry. -/
theorem weight_pos (w : (⟨S4096x4096, .f32⟩ : BufTy).Contents (Elt Ideal)) (hw : Cert.Spec.Real' w) (i : S4096x4096.Idx) :
    val_main_v5 (F := Ideal) w i = Cert.Spec.step (w i) := by
  rw [val_main_v5_apply, val_main_v4_apply, val_main_v3_apply, val_main_v2_apply, val_main_v1_apply, val_main_cst_apply,
    val_main_v0_apply]
  exact Cert.Threshold.straight_through (w i) (hw i)

/-- The second weight operand likewise. -/
theorem weight_neg (w : (⟨S4096x4096, .f32⟩ : BufTy).Contents (Elt Ideal)) (hw : Cert.Spec.Real' w) (i : S4096x4096.Idx) :
    val_main_v11 (F := Ideal) w i = Cert.Spec.step (w i) := by
  rw [val_main_v11_apply, val_main_v10_apply, val_main_v9_apply, val_main_v8_apply, val_main_v7_apply, val_main_cst_0_apply,
    val_main_v6_apply]
  exact Cert.Threshold.straight_through (w i) (hw i)

/-- The left operand's index in the first product: batch and position from the output index, `k` on the contracted axis. -/
theorem lidx12_eq (b : Fin 8) (s : Fin 2048) (o k : Fin 4096) : lidx_main_v12 (ix3 b s o) k = ix3 b s k :=
  funext fun a => by match a with | ⟨0, _⟩ => rfl | ⟨1, _⟩ => rfl | ⟨2, _⟩ => rfl
/-- The right operand's index in the first product: the output feature, then `k`. -/
theorem ridx12_eq (b : Fin 8) (s : Fin 2048) (o k : Fin 4096) : ridx_main_v12 (ix3 b s o) k = ix2 o k :=
  funext fun a => by match a with | ⟨0, _⟩ => rfl | ⟨1, _⟩ => rfl
/-- The same two index equations for the second product. -/
theorem lidx13_eq (b : Fin 8) (s : Fin 2048) (o k : Fin 4096) : lidx_main_v13 (ix3 b s o) k = ix3 b s k :=
  funext fun a => by match a with | ⟨0, _⟩ => rfl | ⟨1, _⟩ => rfl | ⟨2, _⟩ => rfl
theorem ridx13_eq (b : Fin 8) (s : Fin 2048) (o k : Fin 4096) : ridx_main_v13 (ix3 b s o) k = ix2 o k :=
  funext fun a => by match a with | ⟨0, _⟩ => rfl | ⟨1, _⟩ => rfl

/-- On real inputs the reference's result is the specification. -/
theorem result_eq (x : (⟨Cert.ReferenceIdeal.S8x2048x4096, .f32⟩ : BufTy).Contents (Elt Ideal))
    (wp wn : (⟨Cert.ReferenceIdeal.S4096x4096, .f32⟩ : BufTy).Contents (Elt Ideal))
    (hx : Cert.Spec.Real' x) (hwp : Cert.Spec.Real' wp) (hwn : Cert.Spec.Real' wn) :
    Cert.ReferenceIdeal.Read.val_main_v14 (F := Ideal) x wp wn = Cert.Spec.G x wp wn := by
  funext i
  obtain ⟨b, s, o, rfl⟩ : ∃ (b : Fin 8) (s : Fin 2048) (o : Fin 4096), i = ix3 b s o := ⟨i 0, i 1, i 2, eq_ix3 i⟩
  rw [val_main_v14_apply, val_main_v12_apply, val_main_v13_apply, Ideal.subf_def, Cert.Spec.G_apply]
  have e1 : ∀ k : Fin 4096, x (lidx_main_v12 (ix3 b s o) k) * val_main_v5 (F := Ideal) wp (ridx_main_v12 (ix3 b s o) k)
      = x (ix3 b s k) * Cert.Spec.step (wp (ix2 o k)) := fun k => by
    rw [lidx12_eq, ridx12_eq, weight_pos wp hwp]
  have e2 : ∀ k : Fin 4096, x (lidx_main_v13 (ix3 b s o) k) * val_main_v11 (F := Ideal) wn (ridx_main_v13 (ix3 b s o) k)
      = x (ix3 b s k) * Cert.Spec.step (wn (ix2 o k)) := fun k => by
    rw [lidx13_eq, ridx13_eq, weight_neg wn hwn]
  rw [Finset.sum_congr rfl (fun k _ => e1 k), Finset.sum_congr rfl (fun k _ => e2 k)]
  exact Cert.Threshold.sum_mul_sub_split (fun k : Fin 4096 => x (ix3 b s k))
    (fun k => Cert.Spec.step (wp (ix2 o k))) (fun k => Cert.Spec.step (wn (ix2 o k)))
    (fun k => hx _) (fun k => Cert.Threshold.step_real _) (fun k => Cert.Threshold.step_real _)

end Cert.RefSide

end
-- ==== Proof.Finite.lean ====
/-
  From the precondition to "every entry is a real".

  The precondition is three tests `all (|a| < +∞)`, one per argument array, joined by `and`. It holds when the
  one-bit result is 1; then each test's reduction by `and` is 1, so each comparison is 1 at every index, and an
  extended real whose absolute value `max a (−a)` is below `+∞` is neither infinity: it is a real.
-/
import proofs.«134041_j82325933130247_2_alg».proof.Pre_finite_inputs
import proofs.«134041_j82325933130247_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word `0x7F800000` denotes `+∞`. -/
theorem ofBits_inf_f32 : Ideal.ofBits .f32 0x7F800000#32 = ⊤ := by simp [Ideal.ofBits, Ideal.ieee]

/-- An extended real whose absolute value compares below `+∞` is a real. -/
theorem real_of_abs_lt (a : Ideal .f32)
    (h : FloatOps.cmpf (F := Ideal) .olt (FloatOps.hostAbsf a) (FloatOps.ofBits (F := Ideal) .f32 0x7F800000#32) = 1#1) :
    ∃ r : ℝ, a = (r : EReal) := by
  rw [Ideal.cmpf_def, Ideal.hostAbsf_def, Ideal.absf_def, Ideal.ofBits_def, ofBits_inf_f32] at h
  change BitVec.ofBool (decide (max a (-a) < (⊤ : EReal))) = 1#1 at h
  have hlt : max a (-a) < (⊤ : EReal) := by
    by_contra hn
    rw [decide_eq_false hn] at h
    exact absurd h (by decide)
  induction a using EReal.rec with
  | bot => exact absurd hlt (by simp)
  | top => exact absurd hlt (by simp)
  | coe r => exact ⟨r, rfl⟩

/-- Under the precondition every entry of every argument is a real. -/
theorem real_of_pre [Cert.Pre_finite_inputs.Facts] (a0 : FVec Ideal Cert.Pre_finite_inputs.S8x2048x4096 .f32)
    (a1 a2 : FVec Ideal Cert.Pre_finite_inputs.S4096x4096 .f32)
    (h : Cert.Pre_finite_inputs.fn (F := Ideal) a0 a1 a2 = fun _ => 1#1) :
    Cert.Spec.Real' a0 ∧ Cert.Spec.Real' a1 ∧ Cert.Spec.Real' a2 := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt _ (Host.reduce_andi_all _ _ _ _ ix0 h0' i),
    fun i => real_of_abs_lt _ (Host.reduce_andi_all _ _ _ _ ix0 h1 i),
    fun i => real_of_abs_lt _ (Host.reduce_andi_all _ _ _ _ ix0 h2 i)⟩

end Cert.Finite

end
-- ==== Proof.lean ====
/-
  Both programs compute, at the ideal values and for finite inputs,

      y[b, s, o] = ∑ k, x[b, s, k] · (step wp[o, k] − step wn[o, k]),     step w = 1 if w > 0, else 0.

  The kernel does it in two regions. The first combines the two weight matrices, block by block, into the transposed
  matrix D[k, o] = step wp[o, k] − step wn[o, k]. The second multiplies the activations, reshaped to [16384, 4096],
  by D, accumulating each 2048 × 2048 output block over sixteen steps of 256 contracted positions in a scratch
  buffer that is carried from grid point to grid point, zeroed at the first step and copied out at the last. The
  sixteen partial sums are one sum over the 4096 positions because addition on the extended reals is associative
  and commutative; no finiteness is needed on this side.

  The reference passes each weight through t = tanh w and t + (step t − t), and subtracts two products. For a finite
  w, tanh w is a real number of the sign of w, so t + (step t − t) = step w; and for finite x the difference of the
  two sums is the sum of the differences. This is where the precondition (every input finite) is used.

  Each program's frame — it terminates, faults nowhere, leaves its arguments as launched — comes from its run:
  the kernel's two regions as segments between the two host reshapes (the accumulator's contents are the second
  region's invariant), the reference's as its list of host operations.
-/
import proofs.«134041_j82325933130247_2_alg».proof.Defs
import proofs.«134041_j82325933130247_2_alg».proof.Proof.Gen.Kernel
import proofs.«134041_j82325933130247_2_alg».proof.Proof.Gen.KernelIdeal
import proofs.«134041_j82325933130247_2_alg».proof.Proof.Gen.ReferenceIdeal
import proofs.«134041_j82325933130247_2_alg».proof.Proof.Gen.Pre_finite_inputs
import proofs.«134041_j82325933130247_2_alg».proof.Proof.Gen.ReferenceIdeal.Run
import proofs.«134041_j82325933130247_2_alg».proof.Proof.Gen.ReferenceIdeal.Read
import proofs.«134041_j82325933130247_2_alg».proof.Proof.K.Run
import proofs.«134041_j82325933130247_2_alg».proof.Proof.KI.Run
import proofs.«134041_j82325933130247_2_alg».proof.Proof.KI.Final
import proofs.«134041_j82325933130247_2_alg».proof.Proof.RefSide
import proofs.«134041_j82325933130247_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame_all (F := Bits) m ρ

/-- So does the kernel read at the ideal values. -/
theorem frame_kernel_ideal : Cert.frame_KernelIdeal := fun m ρ _ => Cert.KernelIdeal.Hand.frame_all (F := Ideal) m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the specification's array of the launch
    arguments: the kernel's result read through its two regions and two reshapes, the reference's through its
    seventeen host operations, the latter under the finiteness the precondition gives. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_all (F := Ideal) m ρ)
    · exact (h c _ (Cert.KernelIdeal.Hand.mem_uc Cert.KernelIdeal.main_v3 (by decide))).trans (Cert.KernelIdeal.Final.result_array m c)
    · exact (h c _ (Cert.KernelIdeal.Hand.mem_uc Cert.KernelIdeal.main_arg0 (by decide))).trans (Cert.KernelIdeal.Hand.B4_main_arg0 m c)
    · exact (h c _ (Cert.KernelIdeal.Hand.mem_uc Cert.KernelIdeal.main_arg1 (by decide))).trans (Cert.KernelIdeal.Hand.B4_main_arg1 m c)
    · exact (h c _ (Cert.KernelIdeal.Hand.mem_uc Cert.KernelIdeal.main_arg2 (by decide))).trans (Cert.KernelIdeal.Hand.B4_main_arg2 m c)
  · refine (θ_run Cert.ReferenceIdeal.defs _ _).mono (fun _ h c => ⟨?_, (h c).2⟩) (Cert.ReferenceIdeal.Value.run (F := Ideal) m' ρ')
    obtain ⟨hx, hwp, hwn⟩ := Cert.Finite.real_of_pre _ _ _ (hpre c)
    rw [(h c).1, Cert.ReferenceIdeal.Read.val_main_v14_eq, (hagree c).1, (hagree c).2.1, (hagree c).2.2]
    exact Cert.RefSide.result_eq _ _ _ hx hwp hwn

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
